-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x23 : Shape := ⟨2, ![4096, 23]⟩
abbrev S64x5 : Shape := ⟨2, ![64, 5]⟩
abbrev S64 : Shape := ⟨1, ![64]⟩
abbrev S32x64 : Shape := ⟨2, ![32, 64]⟩
abbrev S32 : Shape := ⟨1, ![32]⟩
abbrev S_ : Shape := ⟨0, ![]⟩
abbrev S4096x16 : Shape := ⟨2, ![4096, 16]⟩

class Facts : Prop where
  bcast_S_S4096x23 : S_.BroadcastsInDim S4096x23 (![] : Fin 0 → Fin S4096x23.rank)
  reducesTo_S4096x23_S_d0_1 : S4096x23.ReducesTo [0, 1] S_
  h_S_ : 0 < S_.numel
  bcast_S_S64x5 : S_.BroadcastsInDim S64x5 (![] : Fin 0 → Fin S64x5.rank)
  reducesTo_S64x5_S_d0_1 : S64x5.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  slices_S4096x23_S4096x16_0_7 : S4096x23.Slices ![0, 7] S4096x16
  bcast_S_S4096x16 : S_.BroadcastsInDim S4096x16 (![] : Fin 0 → Fin S4096x16.rank)
  reducesTo_S4096x16_S_d0_1 : S4096x16.ReducesTo [0, 1] S_

variable [Facts]

def fn_part2 {F : FTy → Type} [FloatOps F] (main_arg1 : FVec F S4096x23 .f32) (main_v33 : IVec S_ 1) : IVec S_ 1 :=
  let main_v34 : FVec F S4096x16 .f32 := (extractStridedSlice S4096x16 ![0, 7] · slices_S4096x23_S4096x16_0_7) main_arg1
  let main_cst_12 : FVec F S_ .f32 := constant S_ .f32 0x00000000#32
  let main_v35 : FVec F S4096x16 .f32 := broadcastInDim S4096x16 ![] bcast_S_S4096x16 main_cst_12
  let main_v36 : IVec S4096x16 1 := cmpf .oge main_v34 main_v35
  let main_c_13 : IVec S_ 1 := constantI S_ 1 1#1
  let main_v37 : IVec S_ 1 := (fun x v => Host.reduce IntOp.andi x v reducesTo_S4096x16_S_d0_1 h_S_) main_v36 main_c_13
  let main_v38 : IVec S_ 1 := andi main_v33 main_v37
  main_v38

def fn_part1 {F : FTy → Type} [FloatOps F] (main_arg0 : FVec F S4096x23 .f32) (main_arg1 : FVec F S4096x23 .f32) (main_arg4 : FVec F S32x64 .f32) (main_arg5 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg4
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S4096x16 .f32 := (extractStridedSlice S4096x16 ![0, 7] · slices_S4096x23_S4096x16_0_7) main_arg0
  let main_cst_10 : FVec F S_ .f32 := constant S_ .f32 0x00000000#32
  let main_v30 : FVec F S4096x16 .f32 := broadcastInDim S4096x16 ![] bcast_S_S4096x16 main_cst_10
  let main_v31 : IVec S4096x16 1 := cmpf .oge main_v29 main_v30
  let main_c_11 : IVec S_ 1 := constantI S_ 1 1#1
  let main_v32 : IVec S_ 1 := (fun x v => Host.reduce IntOp.andi x v reducesTo_S4096x16_S_d0_1 h_S_) main_v31 main_c_11
  let main_v33 : IVec S_ 1 := andi main_v28 main_v32
  fn_part2 (F := F) main_arg1 main_v33

def fn {F : FTy → Type} [FloatOps F] (main_arg0 : FVec F S4096x23 .f32) (main_arg1 : FVec F S4096x23 .f32) (main_arg2 : FVec F S64x5 .f32) (main_arg3 : FVec F S64 .f32) (main_arg4 : FVec F S32x64 .f32) (main_arg5 : FVec F S32 .f32) : IVec S_ 1 :=
  let main_v0 : FVec F S4096x23 .f32 := Host.absf main_arg0
  let main_cst : FVec F S_ .f32 := constant S_ .f32 0x7F800000#32
  let main_v1 : FVec F S4096x23 .f32 := broadcastInDim S4096x23 ![] bcast_S_S4096x23 main_cst
  let main_v2 : IVec S4096x23 1 := cmpf .olt main_v0 main_v1
  let main_c : IVec S_ 1 := constantI S_ 1 1#1
  let main_v3 : IVec S_ 1 := (fun x v => Host.reduce IntOp.andi x v reducesTo_S4096x23_S_d0_1 h_S_) main_v2 main_c
  let main_v4 : FVec F S4096x23 .f32 := Host.absf main_arg1
  let main_cst_0 : FVec F S_ .f32 := constant S_ .f32 0x7F800000#32
  let main_v5 : FVec F S4096x23 .f32 := broadcastInDim S4096x23 ![] bcast_S_S4096x23 main_cst_0
  let main_v6 : IVec S4096x23 1 := cmpf .olt main_v4 main_v5
  let main_c_1 : IVec S_ 1 := constantI S_ 1 1#1
  let main_v7 : IVec S_ 1 := (fun x v => Host.reduce IntOp.andi x v reducesTo_S4096x23_S_d0_1 h_S_) main_v6 main_c_1
  let main_v8 : IVec S_ 1 := andi main_v3 main_v7
  let main_v9 : FVec F S64x5 .f32 := Host.absf main_arg2
  let main_cst_2 : FVec F S_ .f32 := constant S_ .f32 0x7F800000#32
  let main_v10 : FVec F S64x5 .f32 := broadcastInDim S64x5 ![] bcast_S_S64x5 main_cst_2
  let main_v11 : IVec S64x5 1 := cmpf .olt main_v9 main_v10
  let main_c_3 : IVec S_ 1 := constantI S_ 1 1#1
  let main_v12 : IVec S_ 1 := (fun x v => Host.reduce IntOp.andi x v reducesTo_S64x5_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg1 main_arg4 main_arg5 main_v13 main_v16
-- ==== Kernel.lean ====
abbrev S4096x23 : Shape := ⟨2, ![4096, 23]⟩
abbrev S64x5 : Shape := ⟨2, ![64, 5]⟩
abbrev S64 : Shape := ⟨1, ![64]⟩
abbrev S32x64 : Shape := ⟨2, ![32, 64]⟩
abbrev S32 : Shape := ⟨1, ![32]⟩
abbrev S1x64 : Shape := ⟨2, ![1, 64]⟩
abbrev S1x32 : Shape := ⟨2, ![1, 32]⟩
abbrev S4096x4096 : Shape := ⟨2, ![4096, 4096]⟩
abbrev S512x23 : Shape := ⟨2, ![512, 23]⟩
abbrev S512x4096 : Shape := ⟨2, ![512, 4096]⟩
abbrev S512x5 : Shape := ⟨2, ![512, 5]⟩
abbrev S512x1 : Shape := ⟨2, ![512, 1]⟩
abbrev S512x16 : Shape := ⟨2, ![512, 16]⟩
abbrev S4096x5 : Shape := ⟨2, ![4096, 5]⟩
abbrev S4096x1 : Shape := ⟨2, ![4096, 1]⟩
abbrev S4096x16 : Shape := ⟨2, ![4096, 16]⟩
abbrev S5x64 : Shape := ⟨2, ![5, 64]⟩
abbrev S512x64 : Shape := ⟨2, ![512, 64]⟩
abbrev S64x32 : Shape := ⟨2, ![64, 32]⟩
abbrev S512x32 : Shape := ⟨2, ![512, 32]⟩
abbrev S4096x64 : Shape := ⟨2, ![4096, 64]⟩
abbrev S4096x32 : Shape := ⟨2, ![4096, 32]⟩
abbrev S512 : Shape := ⟨1, ![512]⟩
abbrev S4096 : Shape := ⟨1, ![4096]⟩
abbrev S1x4096 : Shape := ⟨2, ![1, 4096]⟩

abbrev nBuf : Space → Nat
  | .hbm => 9
  | .vmem => 9
  | .smem => 0
  | _ => 0

abbrev bufTy : (tb : Table) → Fin (tcTables nBuf tb) → BufTy
  | .hbm, ⟨0, _⟩ => ⟨S4096x23, .f32⟩
  | .hbm, ⟨1, _⟩ => ⟨S4096x23, .f32⟩
  | .hbm, ⟨2, _⟩ => ⟨S64x5, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S1x64, .f32⟩
  | .hbm, ⟨7, _⟩ => ⟨S1x32, .f32⟩
  | .hbm, ⟨8, _⟩ => ⟨S4096x4096, .f32⟩
  | .local _ .vmem, ⟨0, _⟩ => ⟨S512x23, .f32⟩
  | .local _ .vmem, ⟨1, _⟩ => ⟨S512x23, .f32⟩
  | .local _ .vmem, ⟨2, _⟩ => ⟨S4096x23, .f32⟩
  | .local _ .vmem, ⟨3, _⟩ => ⟨S64x5, .f32⟩
  | .local _ .vmem, ⟨4, _⟩ => ⟨S1x64, .f32⟩
  | .local _ .vmem, ⟨5, _⟩ => ⟨S32x64, .f32⟩
  | .local _ .vmem, ⟨6, _⟩ => ⟨S1x32, .f32⟩
  | .local _ .vmem, ⟨7, _⟩ => ⟨S512x4096, .f32⟩
  | .local _ .vmem, ⟨8, _⟩ => ⟨S512x4096, .f32⟩
  | _, _ => ⟨S4096x23, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x23 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x23 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  shapeCasts_S32_S1x32 : S32.ShapeCasts S1x32
  inb_S512x23_S512x23_0_0 : ∀ a, (![0, 0] : Fin 2 → Nat) a + S512x23.size a ≤ S512x23.size a
  h_S512x23 : 0 < S512x23.numel
  slices_S512x23_o0_1_S512x5 : S512x23.Slices ![0, 1] S512x5
  slices_S512x23_o0_6_S512x1 : S512x23.Slices ![0, 6] S512x1
  slices_S512x23_o0_7_S512x16 : S512x23.Slices ![0, 7] S512x16
  inb_S4096x23_S4096x23_0_0 : ∀ a, (![0, 0] : Fin 2 → Nat) a + S4096x23.size a ≤ S4096x23.size a
  h_S4096x23 : 0 < S4096x23.numel
  slices_S4096x23_o0_1_S4096x5 : S4096x23.Slices ![0, 1] S4096x5
  slices_S4096x23_o0_6_S4096x1 : S4096x23.Slices ![0, 6] S4096x1
  slices_S4096x23_o0_7_S4096x16 : S4096x23.Slices ![0, 7] S4096x16
  inb_S64x5_S64x5_0_0 : ∀ a, (![0, 0] : Fin 2 → Nat) a + S64x5.size a ≤ S64x5.size a
  h_S64x5 : 0 < S64x5.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S32x64_S32x64_0_0 : ∀ a, (![0, 0] : Fin 2 → Nat) a + S32x64.size a ≤ S32x64.size a
  h_S32x64 : 0 < S32x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  transposes_S64x5_p1_0_S5x64 : S64x5.Transposes [1, 0] S5x64
  broadcasts_S1x64_S512x64 : S1x64.Broadcasts S512x64
  transposes_S32x64_p1_0_S64x32 : S32x64.Transposes [1, 0] S64x32
  broadcasts_S1x32_S512x32 : S1x32.Broadcasts S512x32
  broadcasts_S1x64_S4096x64 : S1x64.Broadcasts S4096x64
  broadcasts_S1x32_S4096x32 : S1x32.Broadcasts S4096x32
  reduces_S512x32_S512 : S512x32.Reduces [1] S512
  shapeCasts_S512_S512x1 : S512.ShapeCasts S512x1
  reduces_S4096x32_S4096 : S4096x32.Reduces [1] S4096
  shapeCasts_S4096_S4096x1 : S4096.ShapeCasts S4096x1
  broadcasts_S512x1_S512x32 : S512x1.Broadcasts S512x32
  broadcasts_S4096x1_S4096x32 : S4096x1.Broadcasts S4096x32
  shapeCasts_S4096x1_S1x4096 : S4096x1.ShapeCasts S1x4096
  broadcasts_S512x1_S512x4096 : S512x1.Broadcasts S512x4096
  broadcasts_S1x4096_S512x4096 : S1x4096.Broadcasts S512x4096
  natLt_1_32 : 1 < 32
  inb_S512x4096_S512x4096_0_0 : ∀ a, (![0, 0] : Fin 2 → Nat) a + S512x4096.size a ≤ S512x4096.size a
  h_S512x4096 : 0 < S512x4096.numel
  dot_S512x5_S5x64_S512x64_1_0_0_1_n_n_wf : DotDims.WF S512x5 S5x64 S512x64 [1] [0] [0] [1] [] []
  dot_S512x64_S64x32_S512x32_1_0_0_1_n_n_wf : DotDims.WF S512x64 S64x32 S512x32 [1] [0] [0] [1] [] []
  dot_S4096x5_S5x64_S4096x64_1_0_0_1_n_n_wf : DotDims.WF S4096x5 S5x64 S4096x64 [1] [0] [0] [1] [] []
  dot_S4096x64_S64x32_S4096x32_1_0_0_1_n_n_wf : DotDims.WF S4096x64 S64x32 S4096x32 [1] [0] [0] [1] [] []
  dot_S512x32_S4096x32_S512x4096_1_1_0_0_n_n_wf : DotDims.WF S512x32 S4096x32 S512x4096 [1] [1] [0] [0] [] []
  dot_S512x16_S4096x16_S512x4096_1_1_0_0_n_n_wf : DotDims.WF S512x16 S4096x16 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x23.size a ≤ S4096x23.size a
  hwx0_0 : ∀ i : grid0.Coords, EltTy.bits .f32 = 32 ∨ (Rect.block (s := S4096x23) S512x23.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x23.size a ≤ S4096x23.size a
  hwx0_1 : ∀ i : grid0.Coords, EltTy.bits .f32 = 32 ∨ (Rect.block (s := S4096x23) S4096x23.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x5.size a ≤ S64x5.size a
  hwx0_2 : ∀ i : grid0.Coords, EltTy.bits .f32 = 32 ∨ (Rect.block (s := S64x5) S64x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x4096.size a ≤ S4096x4096.size a
  hwx0_6 : ∀ i : grid0.Coords, EltTy.bits .f32 = 32 ∨ (Rect.block (s := S4096x4096) S512x4096.size (cc0_transform_6 i) (hinb0_6 i)).WholeWords (EltTy.packing .f32)

variable [Facts₀]

def dot_S512x5_S5x64_S512x64_1_0_0_1_n_n : DotDims S512x5 S5x64 S512x64 where
  lhsContracting := [1]
  rhsContracting := [0]
  lhsNonContracting := [0]
  rhsNonContracting := [1]
  lhsBatch := []
  rhsBatch := []
  wf := dot_S512x5_S5x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S4096x5_S5x64_S4096x64_1_0_0_1_n_n : DotDims S4096x5 S5x64 S4096x64 where
  lhsContracting := [1]
  rhsContracting := [0]
  lhsNonContracting := [0]
  rhsNonContracting := [1]
  lhsBatch := []
  rhsBatch := []
  wf := dot_S4096x5_S5x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S512x32_S4096x32_S512x4096_1_1_0_0_n_n : DotDims S512x32 S4096x32 S512x4096 where
  lhsContracting := [1]
  rhsContracting := [1]
  lhsNonContracting := [0]
  rhsNonContracting := [0]
  lhsBatch := []
  rhsBatch := []
  wf := dot_S512x32_S4096x32_S512x4096_1_1_0_0_n_n_wf
def dot_S512x16_S4096x16_S512x4096_1_1_0_0_n_n : DotDims S512x16 S4096x16 S512x4096 where
  lhsContracting := [1]
  rhsContracting := [1]
  lhsNonContracting := [0]
  rhsNonContracting := [0]
  lhsBatch := []
  rhsBatch := []
  wf := dot_S512x16_S4096x16_S512x4096_1_1_0_0_n_n_wf

abbrev win0_0 : Pipeline.Window sig grid0 :=
  Pipeline.Window.ofSpec (Memref.whole main_arg0) S512x23.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x23.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x23 : Shape := ⟨2, ![4096, 23]⟩
abbrev S64x5 : Shape := ⟨2, ![64, 5]⟩
abbrev S64 : Shape := ⟨1, ![64]⟩
abbrev S32x64 : Shape := ⟨2, ![32, 64]⟩
abbrev S32 : Shape := ⟨1, ![32]⟩
abbrev S4096x5 : Shape := ⟨2, ![4096, 5]⟩
abbrev S4096x1 : Shape := ⟨2, ![4096, 1]⟩
abbrev S4096 : Shape := ⟨1, ![4096]⟩
abbrev S4096x16 : Shape := ⟨2, ![4096, 16]⟩
abbrev S5x64 : Shape := ⟨2, ![5, 64]⟩
abbrev S4096x64 : Shape := ⟨2, ![4096, 64]⟩
abbrev S1x64 : Shape := ⟨2, ![1, 64]⟩
abbrev S_ : Shape := ⟨0, ![]⟩
abbrev S64x32 : Shape := ⟨2, ![64, 32]⟩
abbrev S4096x32 : Shape := ⟨2, ![4096, 32]⟩
abbrev S1x32 : Shape := ⟨2, ![1, 32]⟩
abbrev S32x4096 : Shape := ⟨2, ![32, 4096]⟩
abbrev S4096x4096 : Shape := ⟨2, ![4096, 4096]⟩
abbrev S1x4096 : Shape := ⟨2, ![1, 4096]⟩
abbrev S16x4096 : Shape := ⟨2, ![16, 4096]⟩

abbrev nBuf : Space → Nat
  | .hbm => 74
  | .vmem => 0
  | .smem => 0
  | _ => 0

abbrev bufTy : (tb : Table) → Fin (tcTables nBuf tb) → BufTy
  | .hbm, ⟨0, _⟩ => ⟨S4096x23, .f32⟩
  | .hbm, ⟨1, _⟩ => ⟨S4096x23, .f32⟩
  | .hbm, ⟨2, _⟩ => ⟨S64x5, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S4096x5, .f32⟩
  | .hbm, ⟨7, _⟩ => ⟨S4096x5, .f32⟩
  | .hbm, ⟨8, _⟩ => ⟨S4096x1, .f32⟩
  | .hbm, ⟨9, _⟩ => ⟨S4096, .f32⟩
  | .hbm, ⟨10, _⟩ => ⟨S4096x1, .f32⟩
  | .hbm, ⟨11, _⟩ => ⟨S4096, .f32⟩
  | .hbm, ⟨12, _⟩ => ⟨S4096x16, .f32⟩
  | .hbm, ⟨13, _⟩ => ⟨S4096x16, .f32⟩
  | .hbm, ⟨14, _⟩ => ⟨S5x64, .f32⟩
  | .hbm, ⟨15, _⟩ => ⟨S4096x64, .f32⟩
  | .hbm, ⟨16, _⟩ => ⟨S1x64, .f32⟩
  | .hbm, ⟨17, _⟩ => ⟨S4096x64, .f32⟩
  | .hbm, ⟨18, _⟩ => ⟨S4096x64, .f32⟩
  | .hbm, ⟨19, _⟩ => ⟨S_, .f32⟩
  | .hbm, ⟨20, _⟩ => ⟨S4096x64, .f32⟩
  | .hbm, ⟨21, _⟩ => ⟨S4096x64, .f32⟩
  | .hbm, ⟨22, _⟩ => ⟨S64x32, .f32⟩
  | .hbm, ⟨23, _⟩ => ⟨S4096x32, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S5x64, .f32⟩
  | .hbm, ⟨28, _⟩ => ⟨S4096x64, .f32⟩
  | .hbm, ⟨29, _⟩ => ⟨S1x64, .f32⟩
  | .hbm, ⟨30, _⟩ => ⟨S4096x64, .f32⟩
  | .hbm, ⟨31, _⟩ => ⟨S4096x64, .f32⟩
  | .hbm, ⟨32, _⟩ => ⟨S_, .f32⟩
  | .hbm, ⟨33, _⟩ => ⟨S4096x64, .f32⟩
  | .hbm, ⟨34, _⟩ => ⟨S4096x64, .f32⟩
  | .hbm, ⟨35, _⟩ => ⟨S64x32, .f32⟩
  | .hbm, ⟨36, _⟩ => ⟨S4096x32, .f32⟩
  | .hbm, ⟨37, _⟩ => ⟨S1x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x32, .f32⟩
  | .hbm, ⟨59, _⟩ => ⟨S4096x32, .f32⟩
  | .hbm, ⟨60, _⟩ => ⟨S32x4096, .f32⟩
  | .hbm, ⟨61, _⟩ => ⟨S4096x4096, .f32⟩
  | .hbm, ⟨62, _⟩ => ⟨S4096x1, .f32⟩
  | .hbm, ⟨63, _⟩ => ⟨S1x4096, .f32⟩
  | .hbm, ⟨64, _⟩ => ⟨S4096x4096, .f32⟩
  | .hbm, ⟨65, _⟩ => ⟨S4096x4096, .f32⟩
  | .hbm, ⟨66, _⟩ => ⟨S4096x4096, .i1⟩
  | .hbm, ⟨67, _⟩ => ⟨S4096x4096, .f32⟩
  | .hbm, ⟨68, _⟩ => ⟨S4096x16, .f32⟩
  | .hbm, ⟨69, _⟩ => ⟨S4096x16, .f32⟩
  | .hbm, ⟨70, _⟩ => ⟨S16x4096, .f32⟩
  | .hbm, ⟨71, _⟩ => ⟨S4096x4096, .f32⟩
  | .hbm, ⟨72, _⟩ => ⟨S4096x4096, .f32⟩
  | .hbm, ⟨73, _⟩ => ⟨S4096x4096, .f32⟩
  | _, _ => ⟨S4096x23, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call1_cst : Ref sig .tc := ⟨.hbm, 32, rfl⟩
abbrev main_call1_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call2_v0 : Ref sig .tc := ⟨.hbm, 40, rfl⟩
abbrev main_call2_cst : Ref sig .tc := ⟨.hbm, 41, rfl⟩
abbrev main_call2_v1 : Ref sig .tc := ⟨.hbm, 42, rfl⟩
abbrev main_call2_v2 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call3_v0 : Ref sig .tc := ⟨.hbm, 50, rfl⟩
abbrev main_call3_cst : Ref sig .tc := ⟨.hbm, 51, rfl⟩
abbrev main_call3_v1 : Ref sig .tc := ⟨.hbm, 52, rfl⟩
abbrev main_call3_v2 : Ref sig .tc := ⟨.hbm, 53, rfl⟩
abbrev main_v35 : Ref sig .tc := ⟨.hbm, 54, rfl⟩
abbrev main_cst_0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  slices_S4096x23_S4096x5_0_1 : S4096x23.Slices ![0, 1] S4096x5
  slices_S4096x23_S4096x1_0_6 : S4096x23.Slices ![0, 6] S4096x1
  shapeCasts_S4096x1_S4096 : S4096x1.ShapeCasts S4096
  slices_S4096x23_S4096x16_0_7 : S4096x23.Slices ![0, 7] S4096x16
  transposes_S64x5_S5x64_1_0 : S64x5.Transposes [1, 0] S5x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  transposes_S32x64_S64x32_1_0 : S32x64.Transposes [1, 0] S64x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  reducesTo_S4096x32_S4096_d1 : S4096x32.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x32_0_1 : S4096x1.BroadcastsInDim S4096x32 (![0, 1] : Fin 2 → Fin S4096x32.rank)
  transposes_S4096x32_S32x4096_1_0 : S4096x32.Transposes [1, 0] S32x4096
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x16_S16x4096_1_0 : S4096x16.Transposes [1, 0] S16x4096
  dot_S4096x5_S5x64_S4096x64_1_0_0_1_n_n_wf : DotDims.WF S4096x5 S5x64 S4096x64 [1] [0] [0] [1] [] []
  dot_S4096x64_S64x32_S4096x32_1_0_0_1_n_n_wf : DotDims.WF S4096x64 S64x32 S4096x32 [1] [0] [0] [1] [] []
  dot_S4096x32_S32x4096_S4096x4096_1_0_0_1_n_n_wf : DotDims.WF S4096x32 S32x4096 S4096x4096 [1] [0] [0] [1] [] []
  dot_S4096x16_S16x4096_S4096x4096_1_0_0_1_n_n_wf : DotDims.WF S4096x16 S16x4096 S4096x4096 [1] [0] [0] [1] [] []

variable [Facts₀]

def dot_S4096x5_S5x64_S4096x64_1_0_0_1_n_n : DotDims S4096x5 S5x64 S4096x64 where
  lhsContracting := [1]
  rhsContracting := [0]
  lhsNonContracting := [0]
  rhsNonContracting := [1]
  lhsBatch := []
  rhsBatch := []
  wf := dot_S4096x5_S5x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.Spec.lean ====
/-
  The function both programs compute, written row by row over the extended reals.

  A row of `preds` has 23 columns: column 0 is unused, columns 1–5 are five features, column 6 is a class label and
  columns 7–22 are sixteen confidences. Each row's features go through a two-layer perceptron (5 → 64, rectified, → 32)
  to an embedding `emb`. For a row `r` of the first array and a row `s` of the second the result is the product of
  three numbers: `same` (1 when the two class labels are equal, else 0), `overlap` (the inner product of the square
  roots of the two confidence vectors) and `cosine` (the inner product of the two embeddings, each divided by its
  Euclidean norm clamped below by a small constant). Every quantity is a function of ONE row of each array, which is
  why a tile of rows and the whole array of rows give the same numbers.
-/
import Idealize.ShloMosaic.PureOps.Ideal
import Idealize.ShloMosaic.PureOps.Ideal.Laws
import Idealize.ShloMosaic.Lib.ValueIdx

noncomputable section

namespace Cert.PairSim

open Idealize.ShloMosaic Idealize.ShloMosaic.ValueIdx

/-- Column of feature `k` in a row of `preds`. -/
abbrev featCol (k : Fin 5) : Fin 23 := ⟨1 + k.val, by have := k.isLt; omega⟩
/-- Column of the class label. -/
abbrev clsCol : Fin 23 := ⟨6, by decide⟩
/-- Column of confidence `c`. -/
abbrev confCol (c : Fin 16) : Fin 23 := ⟨7 + c.val, by have := c.isLt; omega⟩

/-- The clamp under the norm: the single-precision number nearest 1e-8, the same word in both programs. -/
abbrev tiny : EReal := Ideal.ofBits .f32 0x322BCC77#32

/-- Hidden unit `h` of a row with features `x`: the rectified affine form `max (x · w1[h] + b1[h]) 0`. -/
def hid (x : Fin 5 → EReal) (w1 : Fin 64 → Fin 5 → EReal) (b1 : Fin 64 → EReal) (h : Fin 64) : EReal :=
  max ((∑ k : Fin 5, x k * w1 h k) + b1 h) 0

/-- Coordinate `e` of the row's embedding: `hid · w2[e] + b2[e]`. -/
def emb (x : Fin 5 → EReal) (w1 : Fin 64 → Fin 5 → EReal) (b1 : Fin 64 → EReal) (w2 : Fin 32 → Fin 64 → EReal)
    (b2 : Fin 32 → EReal) (e : Fin 32) : EReal :=
  (∑ h : Fin 64, hid x w1 b1 h * w2 e h) + b2 e

/-- The clamped Euclidean norm of an embedding. -/
def nrm (f : Fin 32 → EReal) : EReal := max (Ideal.sqrt (∑ e : Fin 32, f e * f e)) tiny

/-- Inner product of two embeddings, each divided by its clamped norm. -/
def cosine (f g : Fin 32 → EReal) : EReal := ∑ e : Fin 32, Ideal.div (f e) (nrm f) * Ideal.div (g e) (nrm g)

/-- Inner product of the square roots of two confidence vectors. -/
def overlap (a b : Fin 16 → EReal) : EReal := ∑ c : Fin 16, Ideal.sqrt (a c) * Ideal.sqrt (b c)

/-- 1 when two labels are equal, else 0. -/
def same (u v : EReal) : EReal := (((Ideal.cmp .oeq u v).toNat : ℝ) : EReal)

/-- The result for one pair of rows, from the two rows' label, confidences and features and the perceptron's weights. -/
def pair (u v : EReal) (a b : Fin 16 → EReal) (x y : Fin 5 → EReal) (w1 : Fin 64 → Fin 5 → EReal) (b1 : Fin 64 → EReal)
    (w2 : Fin 32 → Fin 64 → EReal) (b2 : Fin 32 → EReal) : EReal :=
  same u v * overlap a b * cosine (emb x w1 b1 w2 b2) (emb y w1 b1 w2 b2)

/-- The whole result array as one function of the six argument arrays: entry `(r, s)` is `pair` of row `r` of the
    first array and row `s` of the second. -/
def G (P1 P2 : (⟨2, ![4096, 23]⟩ : Shape).Idx → EReal) (W1 : (⟨2, ![64, 5]⟩ : Shape).Idx → EReal)
    (B1 : (⟨1, ![64]⟩ : Shape).Idx → EReal) (W2 : (⟨2, ![32, 64]⟩ : Shape).Idx → EReal)
    (B2 : (⟨1, ![32]⟩ : Shape).Idx → EReal) : (⟨2, ![4096, 4096]⟩ : Shape).Idx → EReal := fun i =>
  pair (P1 (ix2 (i 0) clsCol)) (P2 (ix2 (i 1) clsCol))
    (fun c => P1 (ix2 (i 0) (confCol c))) (fun c => P2 (ix2 (i 1) (confCol c)))
    (fun k => P1 (ix2 (i 0) (featCol k))) (fun k => P2 (ix2 (i 1) (featCol k)))
    (fun h k => W1 (ix2 h k)) (fun h => B1 (ix1 h)) (fun e h => W2 (ix2 e h)) (fun e => B2 (ix1 e))

theorem G_apply (P1 P2 : (⟨2, ![4096, 23]⟩ : Shape).Idx → EReal) (W1 : (⟨2, ![64, 5]⟩ : Shape).Idx → EReal)
    (B1 : (⟨1, ![64]⟩ : Shape).Idx → EReal) (W2 : (⟨2, ![32, 64]⟩ : Shape).Idx → EReal)
    (B2 : (⟨1, ![32]⟩ : Shape).Idx → EReal) (r s : Fin 4096) :
    G P1 P2 W1 B1 W2 B2 (ix2 r s) =
      pair (P1 (ix2 r clsCol)) (P2 (ix2 s clsCol))
        (fun c => P1 (ix2 r (confCol c))) (fun c => P2 (ix2 s (confCol c)))
        (fun k => P1 (ix2 r (featCol k))) (fun k => P2 (ix2 s (featCol k)))
        (fun h k => W1 (ix2 h k)) (fun h => B1 (ix1 h)) (fun e h => W2 (ix2 e h)) (fun e => B2 (ix1 e)) := rfl

/-! ## The one law that joins the two programs -/

/-- Clamping a non-negative number at zero before the square root changes nothing. (Below zero it would: the root of
    `max a 0 = 0` is `0` while the root of a negative number has no real value. This is where the confidences'
    non-negativity is used.) -/
theorem sqrt_max_zero {a : EReal} (h : 0 ≤ a) : Ideal.sqrt (max a 0) = Ideal.sqrt a := by
  rw [max_eq_left h]

/-- So the inner product of the roots of clamped confidences is `overlap`, when no confidence is negative. -/
theorem overlap_clamped (a b : Fin 16 → EReal) (ha : ∀ c, 0 ≤ a c) (hb : ∀ c, 0 ≤ b c) :
    (∑ c : Fin 16, Ideal.sqrt (max (a c) 0) * Ideal.sqrt (max (b c) 0)) = overlap a b := by
  unfold overlap
  exact Finset.sum_congr rfl fun c _ => by rw [sqrt_max_zero (ha c), sqrt_max_zero (hb c)]

/-! ## The 0/1 mask in its two spellings -/

/-- A one-bit word widened to 32 bits without sign and then read as a signed integer is the bit itself. -/
theorem toInt_setWidth_one (b : BitVec 1) : ((b.setWidth 32).toInt : ℝ) = (b.toNat : ℝ) := by
  have h : ∀ b : BitVec 1, (b.setWidth 32).toInt = (b.toNat : Int) := by decide
  rw [h b]; norm_cast

/-- Hence the mask built by widening the comparison bit and converting it as a signed integer is `same`. -/
theorem same_widened (u v : EReal) :
    ((((Ideal.cmp .oeq u v).setWidth 32).toInt : ℝ) : EReal) = same u v := by
  unfold same; rw [toInt_setWidth_one]

end Cert.PairSim

end
-- ==== Proof.ConfNonneg.lean ====
/-
  The precondition's last two tests, read back as inequalities.

  The precondition is a conjunction of tests, each of the form "every entry of an array of bits is 1". Its last two
  tests compare columns 7..22 of the first and of the second argument with zero, entry by entry, by "greater or
  equal". A conjunction that is 1 has every conjunct 1; an "all" that is 1 has every bit 1; and the bit of "x ≥ 0" is
  1 exactly when 0 ≤ x over the extended reals. The entry (r, c) of the cut columns is the entry (r, 7 + c) of the
  argument, so every confidence entry of both arguments is non-negative.
-/
import proofs.«151634_j76819785056585_2_alg».proof.Pre_finite_inputs
import proofs.«151634_j76819785056585_2_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll

noncomputable section

namespace Cert.PairSim.Pre

open Idealize.ShloMosaic Idealize.ShloMosaic.ValueIdx Cert.Pre_finite_inputs

/-- The scalar shape has one index. -/
instance subsingleton_scalar_idx : Subsingleton S_.Idx := ⟨fun a b => funext fun d => d.elim0⟩

/-- A conjunction of two scalar bits that is 1 has both bits 1. -/
theorem both_of_andi (x y : IVec S_ 1) (h : andi x y ix0 = 1#1) : x ix0 = 1#1 ∧ y ix0 = 1#1 :=
  IntOp.andi_eq_one.1 h

/-- The bit of "x ≥ 0" is 1 only when 0 ≤ x. -/
theorem nonneg_of_oge_bit (x : EReal) (h : Ideal.cmp .oge x 0 = 1#1) : (0 : EReal) ≤ x := by
  unfold Ideal.cmp at h
  by_contra hx
  simp [hx] at h

/-- Entry (r, c) of the test "columns 7..22 are ≥ 0" being 1 says the argument's entry (r, 7 + c) is non-negative. -/
theorem entry_nonneg (a : FVec Ideal S4096x23 .f32) (hs : S4096x23.Slices ![0, 7] S4096x16)
    (hb : S_.BroadcastsInDim S4096x16 (![] : Fin 0 → Fin S4096x16.rank)) (r : Fin 4096) (c : Fin 16)
    (h : cmpf .oge (extractStridedSlice S4096x16 ![0, 7] a hs)
          (broadcastInDim S4096x16 ![] hb (constant S_ .f32 0x00000000#32)) (ix2 r c) = 1#1) :
    (0 : EReal) ≤ a (ix2 r (Cert.PairSim.confCol c)) := by
  have e1 : extractStridedSlice S4096x16 ![0, 7] a hs (ix2 r c) = a (ix2 r (Cert.PairSim.confCol c)) :=
    extractStridedSlice_apply ![0, 7] a hs (ix2 r c) (ix2 r (Cert.PairSim.confCol c)) (fun ax => by
      match ax with
      | ⟨0, _⟩ => exact (Nat.zero_add _).symm
      | ⟨1, _⟩ => rfl)
  have e2 : broadcastInDim S4096x16 ![] hb (constant (F := Ideal) S_ .f32 0x00000000#32) (ix2 r c) = (0 : EReal) :=
    (broadcastInDim_apply ![] hb _ (ix2 r c) ix0 (fun ax => ax.elim0)).trans Ideal.ofBits_zero_f32
  rw [cmpf_apply, Ideal.cmpf_def, e1, e2] at h
  exact nonneg_of_oge_bit _ h

/-- Under the precondition every entry of columns 7..22 of the first two arguments is non-negative: the last two
    conjuncts are split off the conjunction, each "all" gives its bit at (r, c), and the bit gives the inequality. -/
theorem conf_nonneg [hPre : Cert.Pre_finite_inputs.Facts]
    (a0 a1 : FVec Ideal S4096x23 .f32) (a2 : FVec Ideal S64x5 .f32) (a3 : FVec Ideal S64 .f32)
    (a4 : FVec Ideal S32x64 .f32) (a5 : FVec Ideal S32 .f32)
    (h : Cert.Pre_finite_inputs.fn (F := Ideal) a0 a1 a2 a3 a4 a5 = (fun _ => 1#1)) :
    (∀ (r : Fin 4096) (c : Fin 16), (0 : EReal) ≤ a0 (ValueIdx.ix2 r (Cert.PairSim.confCol c)))
    ∧ (∀ (r : Fin 4096) (c : Fin 16), (0 : EReal) ≤ a1 (ValueIdx.ix2 r (Cert.PairSim.confCol c))) := by
  have e := congrFun h ix0
  dsimp only [fn, fn_part1, fn_part2] at e
  obtain ⟨e33, e37⟩ := both_of_andi _ _ e
  obtain ⟨-, e32⟩ := both_of_andi _ _ e33
  exact ⟨fun r c => entry_nonneg a0 _ _ r c (Host.reduce_andi_all _ _ _ _ ix0 e32 (ix2 r c)),
    fun r c => entry_nonneg a1 _ _ r c (Host.reduce_andi_all _ _ _ _ ix0 e37 (ix2 r c))⟩

end Cert.PairSim.Pre

end
-- ==== Proof.RefIsG.lean ====
/-
  The reference program's result is the specification.

  The reference computes the result array in stages; each stage's entry at an index is read from the entries of the
  stages before it. Going through the stages in order, each one is recognised as one of the specification's row
  quantities: the rectified hidden layer, the embedding, its clamped norm, the normalised embedding, then the three
  factors (cosine, the 0/1 label mask, the overlap of the confidences' roots) and finally their product.
-/
import proofs.«151634_j76819785056585_2_alg».proof.Proof.Spec
import proofs.«151634_j76819785056585_2_alg».proof.Proof.Gen.ReferenceIdeal.Read
import Idealize.ShloMosaic.Lib.ValueIdx
import Idealize.ShloMosaic.PureOps.Ideal.Laws

noncomputable section

namespace Cert.PairSim.Ref

open Idealize.ShloMosaic Idealize.ShloMosaic.ValueIdx Cert.ReferenceIdeal Cert.ReferenceIdeal.Read

/-- The hidden layer of the first array: entry `(r, h)` of the rectified stage is hidden unit `h` of row `r`'s features. -/
theorem hid0 (x0 : (⟨S4096x23, .f32⟩ : BufTy).Contents (Elt Ideal)) (x2 : (⟨S64x5, .f32⟩ : BufTy).Contents (Elt Ideal))
    (x3 : (⟨S64, .f32⟩ : BufTy).Contents (Elt Ideal)) (r : Fin 4096) (h : Fin 64) :
    val_main_v13 (F := Ideal) x0 x2 x3 (ix2 r h) =
      hid (fun k => x0 (ix2 r (featCol k))) (fun h k => x2 (ix2 h k)) (fun h => x3 (ix1 h)) h := by
  rw [val_main_v13_apply, val_main_v12_apply, val_main_v9_apply, val_main_v11_apply, val_main_v10_apply,
    val_main_call0_v0_apply, val_main_call0_cst_apply]
  simp only [val_main_v0_apply, val_main_v8_apply]
  rw [Ideal.maximumf_def, Ideal.addf_def, Ideal.ofBits_def, Ideal.ofBits_zero_f32]
  unfold hid
  refine congrArg (max · 0) (congrArg₂ (· + ·) (Finset.sum_congr rfl fun k _ => congrArg₂ (· * ·) (congrArg x0 ?_) (congrArg x2 ?_)) (congrArg x3 ?_))
  · exact funext fun a => by match a with | ⟨0, _⟩ => rfl | ⟨1, _⟩ => rfl
  · exact funext fun a => by match a with | ⟨0, _⟩ => rfl | ⟨1, _⟩ => rfl
  · exact funext fun a => by match a with | ⟨0, _⟩ => rfl

/-- The embedding of the first array: entry `(r, e)` of the second affine stage is coordinate `e` of row `r`'s embedding. -/
theorem emb0 (x0 : (⟨S4096x23, .f32⟩ : BufTy).Contents (Elt Ideal)) (x2 : (⟨S64x5, .f32⟩ : BufTy).Contents (Elt Ideal))
    (x3 : (⟨S64, .f32⟩ : BufTy).Contents (Elt Ideal)) (x4 : (⟨S32x64, .f32⟩ : BufTy).Contents (Elt Ideal))
    (x5 : (⟨S32, .f32⟩ : BufTy).Contents (Elt Ideal)) (r : Fin 4096) (e : Fin 32) :
    val_main_v18 (F := Ideal) x0 x2 x3 x4 x5 (ix2 r e) =
      emb (fun k => x0 (ix2 r (featCol k))) (fun h k => x2 (ix2 h k)) (fun h => x3 (ix1 h)) (fun e h => x4 (ix2 e h))
        (fun e => x5 (ix1 e)) e := by
  rw [val_main_v18_apply, val_main_v15_apply, val_main_v17_apply, val_main_v16_apply]
  simp only [val_main_v14_apply]
  rw [Ideal.addf_def]
  unfold emb
  refine congrArg₂ (· + ·) (Finset.sum_congr rfl fun k _ => congrArg₂ (· * ·) ?_ (congrArg x4 ?_)) (congrArg x5 ?_)
  · exact (congrArg (val_main_v13 (F := Ideal) x0 x2 x3)
      (show lidx_main_v15 (ix2 r e) k = ix2 r k from funext fun a => by match a with | ⟨0, _⟩ => rfl | ⟨1, _⟩ => rfl)).trans (hid0 x0 x2 x3 r k)
  · exact funext fun a => by match a with | ⟨0, _⟩ => rfl | ⟨1, _⟩ => rfl
  · exact funext fun a => by match a with | ⟨0, _⟩ => rfl

/-- The clamped norm of the first array's embedding: the square root of the sum of squares, held above `tiny`. The
    stage has one column; its only column index is written `z`. -/
theorem nrm0 (x0 : (⟨S4096x23, .f32⟩ : BufTy).Contents (Elt Ideal)) (x2 : (⟨S64x5, .f32⟩ : BufTy).Contents (Elt Ideal))
    (x3 : (⟨S64, .f32⟩ : BufTy).Contents (Elt Ideal)) (x4 : (⟨S32x64, .f32⟩ : BufTy).Contents (Elt Ideal))
    (x5 : (⟨S32, .f32⟩ : BufTy).Contents (Elt Ideal)) (r : Fin 4096) (z : Fin 1) :
    val_main_v32 (F := Ideal) x0 x2 x3 x4 x5 (ix2 r z) =
      nrm (emb (fun k => x0 (ix2 r (featCol k))) (fun h k => x2 (ix2 h k)) (fun h => x3 (ix1 h))
        (fun e h => x4 (ix2 e h)) (fun e => x5 (ix1 e))) := by
  rw [val_main_v32_apply, val_main_v30_apply, val_main_call2_v2_apply, val_main_call2_v1_apply,
    val_main_call2_cst_apply, val_main_v31_apply, val_main_cst_apply]
  rw [Ideal.maximumf_def, Ideal.hostUnary_sqrt_def, Ideal.ofBits_def, Ideal.ofBits_def, Ideal.ofBits_zero_f32, zero_add]
  unfold nrm
  refine congrArg (max · tiny) (congrArg Ideal.sqrt (Finset.sum_congr rfl fun k _ => ?_))
  have hk := (congrArg (val_main_v18 (F := Ideal) x0 x2 x3 x4 x5)
      (show idx_main_call2_v1 (idx_main_call2_v2 (ix2 r z)) k = ix2 r k from funext fun a => by match a with | ⟨0, _⟩ => rfl | ⟨1, _⟩ => rfl)).trans (emb0 x0 x2 x3 x4 x5 r k)
  rw [val_main_call2_v0_apply, Ideal.mulf_def, hk]

/-- The normalised embedding of the first array: each coordinate divided by the clamped norm of its row. -/
theorem unit0 (x0 : (⟨S4096x23, .f32⟩ : BufTy).Contents (Elt Ideal)) (x2 : (⟨S64x5, .f32⟩ : BufTy).Contents (Elt Ideal))
    (x3 : (⟨S64, .f32⟩ : BufTy).Contents (Elt Ideal)) (x4 : (⟨S32x64, .f32⟩ : BufTy).Contents (Elt Ideal))
    (x5 : (⟨S32, .f32⟩ : BufTy).Contents (Elt Ideal)) (r : Fin 4096) (e : Fin 32) :
    val_main_v34 (F := Ideal) x0 x2 x3 x4 x5 (ix2 r e) =
      Ideal.div
        (emb (fun k => x0 (ix2 r (featCol k))) (fun h k => x2 (ix2 h k)) (fun h => x3 (ix1 h))
          (fun e h => x4 (ix2 e h)) (fun e => x5 (ix1 e)) e)
        (nrm (emb (fun k => x0 (ix2 r (featCol k))) (fun h k => x2 (ix2 h k)) (fun h => x3 (ix1 h))
          (fun e h => x4 (ix2 e h)) (fun e => x5 (ix1 e)))) := by
  rw [val_main_v34_apply, val_main_v33_apply, Ideal.hostDivf_def, emb0 x0 x2 x3 x4 x5 r e]
  refine congrArg (Ideal.div _) ?_
  exact (congrArg (val_main_v32 (F := Ideal) x0 x2 x3 x4 x5)
      (show idx_main_v33 (ix2 r e) = ix2 r (⟨0, Nat.one_pos⟩ : Fin 1) from funext fun a => by match a with | ⟨0, _⟩ => rfl | ⟨1, _⟩ => rfl)).trans (nrm0 x0 x2 x3 x4 x5 r _)

/-- The hidden layer of the second array: entry `(r, h)` of the rectified stage is hidden unit `h` of row `r`'s features. -/
theorem hid1 (x1 : (⟨S4096x23, .f32⟩ : BufTy).Contents (Elt Ideal)) (x2 : (⟨S64x5, .f32⟩ : BufTy).Contents (Elt Ideal))
    (x3 : (⟨S64, .f32⟩ : BufTy).Contents (Elt Ideal)) (r : Fin 4096) (h : Fin 64) :
    val_main_v24 (F := Ideal) x1 x2 x3 (ix2 r h) =
      hid (fun k => x1 (ix2 r (featCol k))) (fun h k => x2 (ix2 h k)) (fun h => x3 (ix1 h)) h := by
  rw [val_main_v24_apply, val_main_v23_apply, val_main_v20_apply, val_main_v22_apply, val_main_v21_apply,
    val_main_call1_v0_apply, val_main_call1_cst_apply]
  simp only [val_main_v1_apply, val_main_v19_apply]
  rw [Ideal.maximumf_def, Ideal.addf_def, Ideal.ofBits_def, Ideal.ofBits_zero_f32]
  unfold hid
  refine congrArg (max · 0) (congrArg₂ (· + ·) (Finset.sum_congr rfl fun k _ => congrArg₂ (· * ·) (congrArg x1 ?_) (congrArg x2 ?_)) (congrArg x3 ?_))
  · exact funext fun a => by match a with | ⟨0, _⟩ => rfl | ⟨1, _⟩ => rfl
  · exact funext fun a => by match a with | ⟨0, _⟩ => rfl | ⟨1, _⟩ => rfl
  · exact funext fun a => by match a with | ⟨0, _⟩ => rfl

/-- The embedding of the second array: entry `(r, e)` of the second affine stage is coordinate `e` of row `r`'s embedding. -/
theorem emb1 (x1 : (⟨S4096x23, .f32⟩ : BufTy).Contents (Elt Ideal)) (x2 : (⟨S64x5, .f32⟩ : BufTy).Contents (Elt Ideal))
    (x3 : (⟨S64, .f32⟩ : BufTy).Contents (Elt Ideal)) (x4 : (⟨S32x64, .f32⟩ : BufTy).Contents (Elt Ideal))
    (x5 : (⟨S32, .f32⟩ : BufTy).Contents (Elt Ideal)) (r : Fin 4096) (e : Fin 32) :
    val_main_v29 (F := Ideal) x1 x2 x3 x4 x5 (ix2 r e) =
      emb (fun k => x1 (ix2 r (featCol k))) (fun h k => x2 (ix2 h k)) (fun h => x3 (ix1 h)) (fun e h => x4 (ix2 e h))
        (fun e => x5 (ix1 e)) e := by
  rw [val_main_v29_apply, val_main_v26_apply, val_main_v28_apply, val_main_v27_apply]
  simp only [val_main_v25_apply]
  rw [Ideal.addf_def]
  unfold emb
  refine congrArg₂ (· + ·) (Finset.sum_congr rfl fun k _ => congrArg₂ (· * ·) ?_ (congrArg x4 ?_)) (congrArg x5 ?_)
  · exact (congrArg (val_main_v24 (F := Ideal) x1 x2 x3)
      (show lidx_main_v26 (ix2 r e) k = ix2 r k from funext fun a => by match a with | ⟨0, _⟩ => rfl | ⟨1, _⟩ => rfl)).trans (hid1 x1 x2 x3 r k)
  · exact funext fun a => by match a with | ⟨0, _⟩ => rfl | ⟨1, _⟩ => rfl
  · exact funext fun a => by match a with | ⟨0, _⟩ => rfl

/-- The clamped norm of the second array's embedding: the square root of the sum of squares, held above `tiny`. The
    stage has one column; its only column index is written `z`. -/
theorem nrm1 (x1 : (⟨S4096x23, .f32⟩ : BufTy).Contents (Elt Ideal)) (x2 : (⟨S64x5, .f32⟩ : BufTy).Contents (Elt Ideal))
    (x3 : (⟨S64, .f32⟩ : BufTy).Contents (Elt Ideal)) (x4 : (⟨S32x64, .f32⟩ : BufTy).Contents (Elt Ideal))
    (x5 : (⟨S32, .f32⟩ : BufTy).Contents (Elt Ideal)) (r : Fin 4096) (z : Fin 1) :
    val_main_v37 (F := Ideal) x1 x2 x3 x4 x5 (ix2 r z) =
      nrm (emb (fun k => x1 (ix2 r (featCol k))) (fun h k => x2 (ix2 h k)) (fun h => x3 (ix1 h))
        (fun e h => x4 (ix2 e h)) (fun e => x5 (ix1 e))) := by
  rw [val_main_v37_apply, val_main_v35_apply, val_main_call3_v2_apply, val_main_call3_v1_apply,
    val_main_call3_cst_apply, val_main_v36_apply, val_main_cst_0_apply]
  rw [Ideal.maximumf_def, Ideal.hostUnary_sqrt_def, Ideal.ofBits_def, Ideal.ofBits_def, Ideal.ofBits_zero_f32, zero_add]
  unfold nrm
  refine congrArg (max · tiny) (congrArg Ideal.sqrt (Finset.sum_congr rfl fun k _ => ?_))
  have hk := (congrArg (val_main_v29 (F := Ideal) x1 x2 x3 x4 x5)
      (show idx_main_call3_v1 (idx_main_call3_v2 (ix2 r z)) k = ix2 r k from funext fun a => by match a with | ⟨0, _⟩ => rfl | ⟨1, _⟩ => rfl)).trans (emb1 x1 x2 x3 x4 x5 r k)
  rw [val_main_call3_v0_apply, Ideal.mulf_def, hk]

/-- The normalised embedding of the second array: each coordinate divided by the clamped norm of its row. -/
theorem unit1 (x1 : (⟨S4096x23, .f32⟩ : BufTy).Contents (Elt Ideal)) (x2 : (⟨S64x5, .f32⟩ : BufTy).Contents (Elt Ideal))
    (x3 : (⟨S64, .f32⟩ : BufTy).Contents (Elt Ideal)) (x4 : (⟨S32x64, .f32⟩ : BufTy).Contents (Elt Ideal))
    (x5 : (⟨S32, .f32⟩ : BufTy).Contents (Elt Ideal)) (r : Fin 4096) (e : Fin 32) :
    val_main_v39 (F := Ideal) x1 x2 x3 x4 x5 (ix2 r e) =
      Ideal.div
        (emb (fun k => x1 (ix2 r (featCol k))) (fun h k => x2 (ix2 h k)) (fun h => x3 (ix1 h))
          (fun e h => x4 (ix2 e h)) (fun e => x5 (ix1 e)) e)
        (nrm (emb (fun k => x1 (ix2 r (featCol k))) (fun h k => x2 (ix2 h k)) (fun h => x3 (ix1 h))
          (fun e h => x4 (ix2 e h)) (fun e => x5 (ix1 e)))) := by
  rw [val_main_v39_apply, val_main_v38_apply, Ideal.hostDivf_def, emb1 x1 x2 x3 x4 x5 r e]
  refine congrArg (Ideal.div _) ?_
  exact (congrArg (val_main_v37 (F := Ideal) x1 x2 x3 x4 x5)
      (show idx_main_v38 (ix2 r e) = ix2 r (⟨0, Nat.one_pos⟩ : Fin 1) from funext fun a => by match a with | ⟨0, _⟩ => rfl | ⟨1, _⟩ => rfl)).trans (nrm1 x1 x2 x3 x4 x5 r _)

/-- The cosine factor: the inner product of the two normalised embeddings. -/
theorem cos0 (x0 x1 : (⟨S4096x23, .f32⟩ : BufTy).Contents (Elt Ideal)) (x2 : (⟨S64x5, .f32⟩ : BufTy).Contents (Elt Ideal))
    (x3 : (⟨S64, .f32⟩ : BufTy).Contents (Elt Ideal)) (x4 : (⟨S32x64, .f32⟩ : BufTy).Contents (Elt Ideal))
    (x5 : (⟨S32, .f32⟩ : BufTy).Contents (Elt Ideal)) (r s : Fin 4096) :
    val_main_v41 (F := Ideal) x0 x1 x2 x3 x4 x5 (ix2 r s) =
      cosine (emb (fun k => x0 (ix2 r (featCol k))) (fun h k => x2 (ix2 h k)) (fun h => x3 (ix1 h))
        (fun e h => x4 (ix2 e h)) (fun e => x5 (ix1 e)))
        (emb (fun k => x1 (ix2 s (featCol k))) (fun h k => x2 (ix2 h k)) (fun h => x3 (ix1 h))
        (fun e h => x4 (ix2 e h)) (fun e => x5 (ix1 e))) := by
  rw [val_main_v41_apply]
  unfold cosine
  refine Finset.sum_congr rfl fun k _ => congrArg₂ (· * ·) ?_ ?_
  · exact (congrArg (val_main_v34 (F := Ideal) x0 x2 x3 x4 x5)
      (show lidx_main_v41 (ix2 r s) k = ix2 r k from funext fun a => by match a with | ⟨0, _⟩ => rfl | ⟨1, _⟩ => rfl)).trans (unit0 x0 x2 x3 x4 x5 r k)
  · rw [val_main_v40_apply]
    exact (congrArg (val_main_v39 (F := Ideal) x1 x2 x3 x4 x5)
      (show idx_main_v40 (ridx_main_v41 (ix2 r s) k) = ix2 s k from funext fun a => by match a with | ⟨0, _⟩ => rfl | ⟨1, _⟩ => rfl)).trans (unit1 x1 x2 x3 x4 x5 s k)

/-- The label mask: the comparison bit of the two rows' class labels, read as a number. -/
theorem same0 (x0 x1 : (⟨S4096x23, .f32⟩ : BufTy).Contents (Elt Ideal)) (r s : Fin 4096) :
    val_main_v47 (F := Ideal) x0 x1 (ix2 r s) = same (x0 (ix2 r clsCol)) (x1 (ix2 s clsCol)) := by
  rw [val_main_v47_apply, val_main_v46_apply, val_main_v44_apply, val_main_v42_apply, val_main_v3_apply, val_main_v2_apply,
    val_main_v45_apply, val_main_v43_apply, val_main_v5_apply, val_main_v4_apply]
  have e0 : idx_main_v2 (idx_main_v3 (idx_main_v42 (idx_main_v44 (ix2 r s)))) = ix2 r clsCol :=
    funext fun a => by match a with | ⟨0, _⟩ => exact Fin.ext (Nat.div_one _) | ⟨1, _⟩ => rfl
  have e1 : idx_main_v4 (idx_main_v5 (idx_main_v43 (idx_main_v45 (ix2 r s)))) = ix2 s clsCol :=
    funext fun a => by match a with | ⟨0, _⟩ => exact Fin.ext (Nat.div_one _) | ⟨1, _⟩ => rfl
  rw [e0, e1]
  rfl

/-- The overlap factor: the inner product of the square roots of the two rows' confidences. -/
theorem overlap0 (x0 x1 : (⟨S4096x23, .f32⟩ : BufTy).Contents (Elt Ideal)) (r s : Fin 4096) :
    val_main_v51 (F := Ideal) x0 x1 (ix2 r s) =
      overlap (fun c => x0 (ix2 r (confCol c))) (fun c => x1 (ix2 s (confCol c))) := by
  rw [val_main_v51_apply]
  unfold overlap
  refine Finset.sum_congr rfl fun k _ => congrArg₂ (· * ·) ?_ ?_
  · rw [val_main_v48_apply, val_main_v6_apply, Ideal.hostUnary_sqrt_def]
    exact congrArg Ideal.sqrt (congrArg x0 (funext fun a => by match a with | ⟨0, _⟩ => rfl | ⟨1, _⟩ => rfl))
  · rw [val_main_v50_apply, val_main_v49_apply, val_main_v7_apply, Ideal.hostUnary_sqrt_def]
    exact congrArg Ideal.sqrt (congrArg x1 (funext fun a => by match a with | ⟨0, _⟩ => rfl | ⟨1, _⟩ => rfl))

/-- The reference program's result is the specification: at every pair of rows the last stage is the product of the
    label mask, the overlap and the cosine. -/
theorem ref_eq_G (x0 x1 : (⟨S4096x23, .f32⟩ : BufTy).Contents (Elt Ideal)) (x2 : (⟨S64x5, .f32⟩ : BufTy).Contents (Elt Ideal))
    (x3 : (⟨S64, .f32⟩ : BufTy).Contents (Elt Ideal)) (x4 : (⟨S32x64, .f32⟩ : BufTy).Contents (Elt Ideal))
    (x5 : (⟨S32, .f32⟩ : BufTy).Contents (Elt Ideal)) :
    Cert.ReferenceIdeal.Read.val_main_v53 (F := Ideal) x0 x1 x2 x3 x4 x5 = Cert.PairSim.G x0 x1 x2 x3 x4 x5 := by
  funext i
  obtain ⟨r, s, rfl⟩ : ∃ (r : Fin 4096) (s : Fin 4096), i = ix2 r s := ⟨i 0, i 1, eq_ix2 i⟩
  rw [val_main_v53_apply, val_main_v52_apply, Ideal.mulf_def, Ideal.mulf_def, same0, overlap0, cos0, G_apply]
  rfl

end Cert.PairSim.Ref

end
-- ==== Proof.KernelOps.lean ====
/-
  The kernel body's vector operations read at one entry.

  A matrix product into a zero accumulator is, at an output entry, the sum over the contracted axis of the products of
  the operands' entries (`matmul_zero_sum`, stated once for any dimension numbers that contract one axis); the rest
  of this file says, for each product the body forms, WHICH entries those are — for a plain product `l (p, k) · r (k, e)`,
  for a product against a transposed right operand `l (p, k) · r (e, k)` — and reads the body's slices, transposes,
  broadcasts, shape casts and row sums at an entry.
-/
import proofs.«151634_j76819785056585_2_alg».proof.Proof.Gen.KernelIdeal.Skeleton
import proofs.«151634_j76819785056585_2_alg».proof.Proof.Spec
import Idealize.ShloMosaic.Lib.ValueIdx
import Idealize.ShloMosaic.Lib.Pipeline.Value
import Idealize.ShloMosaic.PureOps.Ideal.Laws

noncomputable section

namespace Cert.PairSim.Kern

open Idealize.ShloMosaic Idealize.ShloMosaic.ValueIdx Cert.KernelIdeal

/-! ## A product into a zero accumulator, at an entry -/

/-- For dimension numbers `D` that contract ONE axis, of extent `K`: the product of `l` and `r` into the zero
    accumulator, read at the output index `j`, is the sum over `k < K` of `l` at `li k` times `r` at `ri k`,
    where `li k` and `ri k` are the operand indices the dimension numbers assign to `(j, k)`. -/
theorem matmul_zero_sum {sl sr so : Shape} (D : DotDims sl sr so) (K : Nat) (hr : D.contr.rank = 1)
    (hs : D.contr.size ⟨0, by omega⟩ = K) (l : FVec Ideal sl .f32) (r : FVec Ideal sr .f32) (j : so.Idx)
    (li : Fin K → sl.Idx) (ri : Fin K → sr.Idx)
    (hl : ∀ k : Fin K, D.lhsIdx j ((ValueIdx.contrEquiv1 D K hr hs).symm k) = li k)
    (hri : ∀ k : Fin K, D.rhsIdx j ((ValueIdx.contrEquiv1 D K hr hs).symm k) = ri k) :
    matmul D none l r (constant so .f32 0x00000000#32) j = ∑ k : Fin K, l (li k) * r (ri k) := by
  refine (Ideal.matmul_constant_zero_apply D none l r j).trans ?_
  rw [← Equiv.sum_comp (ValueIdx.contrEquiv1 D K hr hs).symm]
  exact Finset.sum_congr rfl fun k _ => by rw [hl k, hri k]

variable [hK : Cert.KernelIdeal.Facts]

/-! ## The six products of the body: which entries each one multiplies -/

/-- Features [512,5] times the transposed first-layer weights [5,64]. -/
theorem mm_feat_512 (l : FVec Ideal S512x5 .f32) (r : FVec Ideal S5x64 .f32) (p : Fin 512) (e : Fin 64) :
    matmul dot_S512x5_S5x64_S512x64_1_0_0_1_n_n none l r (constant S512x64 .f32 0x00000000#32) (ix2 p e)
      = ∑ k : Fin 5, l (ix2 p k) * r (ix2 k e) :=
  matmul_zero_sum dot_S512x5_S5x64_S512x64_1_0_0_1_n_n 5 rfl rfl l r (ix2 p e) (fun k => ix2 p k) (fun k => ix2 k e)
    (fun k => funext fun a => Fin.ext (by
      have hk := ValueIdx.contrEquiv1_symm_val dot_S512x5_S5x64_S512x64_1_0_0_1_n_n 5 rfl rfl k
      match a with
      | ⟨0, _⟩ =>
        show (dot_S512x5_S5x64_S512x64_1_0_0_1_n_n.lhsIdx (ix2 p e) _ (0 : Fin S512x5.rank)).val = p.val
        unfold DotDims.lhsIdx
        rw [dif_neg (show ¬(0 : Fin S512x5.rank) ∈ dot_S512x5_S5x64_S512x64_1_0_0_1_n_n.lhsBatch by decide), dif_pos (show (0 : Fin S512x5.rank) ∈ dot_S512x5_S5x64_S512x64_1_0_0_1_n_n.lhsNonContracting by decide)]
        rfl
      | ⟨1, _⟩ => exact (dot_S512x5_S5x64_S512x64_1_0_0_1_n_n.lhsIdx_val_of_single rfl (ix2 p e) _).trans hk))
    (fun k => funext fun a => Fin.ext (by
      have hk := ValueIdx.contrEquiv1_symm_val dot_S512x5_S5x64_S512x64_1_0_0_1_n_n 5 rfl rfl k
      match a with
      | ⟨0, _⟩ => exact (dot_S512x5_S5x64_S512x64_1_0_0_1_n_n.rhsIdx_val_of_single rfl (ix2 p e) _).trans hk
      | ⟨1, _⟩ =>
        show (dot_S512x5_S5x64_S512x64_1_0_0_1_n_n.rhsIdx (ix2 p e) _ (1 : Fin S5x64.rank)).val = e.val
        unfold DotDims.rhsIdx
        rw [dif_neg (show ¬(1 : Fin S5x64.rank) ∈ dot_S512x5_S5x64_S512x64_1_0_0_1_n_n.rhsBatch by decide), dif_pos (show (1 : Fin S5x64.rank) ∈ dot_S512x5_S5x64_S512x64_1_0_0_1_n_n.rhsNonContracting by decide)]
        rfl))

/-- Hidden units [512,64] times the transposed second-layer weights [64,32]. -/
theorem mm_hid_512 (l : FVec Ideal S512x64 .f32) (r : FVec Ideal S64x32 .f32) (p : Fin 512) (e : Fin 32) :
    matmul dot_S512x64_S64x32_S512x32_1_0_0_1_n_n none l r (constant S512x32 .f32 0x00000000#32) (ix2 p e)
      = ∑ k : Fin 64, l (ix2 p k) * r (ix2 k e) :=
  matmul_zero_sum dot_S512x64_S64x32_S512x32_1_0_0_1_n_n 64 rfl rfl l r (ix2 p e) (fun k => ix2 p k) (fun k => ix2 k e)
    (fun k => funext fun a => Fin.ext (by
      have hk := ValueIdx.contrEquiv1_symm_val dot_S512x64_S64x32_S512x32_1_0_0_1_n_n 64 rfl rfl k
      match a with
      | ⟨0, _⟩ =>
        show (dot_S512x64_S64x32_S512x32_1_0_0_1_n_n.lhsIdx (ix2 p e) _ (0 : Fin S512x64.rank)).val = p.val
        unfold DotDims.lhsIdx
        rw [dif_neg (show ¬(0 : Fin S512x64.rank) ∈ dot_S512x64_S64x32_S512x32_1_0_0_1_n_n.lhsBatch by decide), dif_pos (show (0 : Fin S512x64.rank) ∈ dot_S512x64_S64x32_S512x32_1_0_0_1_n_n.lhsNonContracting by decide)]
        rfl
      | ⟨1, _⟩ => exact (dot_S512x64_S64x32_S512x32_1_0_0_1_n_n.lhsIdx_val_of_single rfl (ix2 p e) _).trans hk))
    (fun k => funext fun a => Fin.ext (by
      have hk := ValueIdx.contrEquiv1_symm_val dot_S512x64_S64x32_S512x32_1_0_0_1_n_n 64 rfl rfl k
      match a with
      | ⟨0, _⟩ => exact (dot_S512x64_S64x32_S512x32_1_0_0_1_n_n.rhsIdx_val_of_single rfl (ix2 p e) _).trans hk
      | ⟨1, _⟩ =>
        show (dot_S512x64_S64x32_S512x32_1_0_0_1_n_n.rhsIdx (ix2 p e) _ (1 : Fin S64x32.rank)).val = e.val
        unfold DotDims.rhsIdx
        rw [dif_neg (show ¬(1 : Fin S64x32.rank) ∈ dot_S512x64_S64x32_S512x32_1_0_0_1_n_n.rhsBatch by decide), dif_pos (show (1 : Fin S64x32.rank) ∈ dot_S512x64_S64x32_S512x32_1_0_0_1_n_n.rhsNonContracting by decide)]
        rfl))

/-- Features [4096,5] times the transposed first-layer weights [5,64]. -/
theorem mm_feat_4096 (l : FVec Ideal S4096x5 .f32) (r : FVec Ideal S5x64 .f32) (p : Fin 4096) (e : Fin 64) :
    matmul dot_S4096x5_S5x64_S4096x64_1_0_0_1_n_n none l r (constant S4096x64 .f32 0x00000000#32) (ix2 p e)
      = ∑ k : Fin 5, l (ix2 p k) * r (ix2 k e) :=
  matmul_zero_sum dot_S4096x5_S5x64_S4096x64_1_0_0_1_n_n 5 rfl rfl l r (ix2 p e) (fun k => ix2 p k) (fun k => ix2 k e)
    (fun k => funext fun a => Fin.ext (by
      have hk := ValueIdx.contrEquiv1_symm_val dot_S4096x5_S5x64_S4096x64_1_0_0_1_n_n 5 rfl rfl k
      match a with
      | ⟨0, _⟩ =>
        show (dot_S4096x5_S5x64_S4096x64_1_0_0_1_n_n.lhsIdx (ix2 p e) _ (0 : Fin S4096x5.rank)).val = p.val
        unfold DotDims.lhsIdx
        rw [dif_neg (show ¬(0 : Fin S4096x5.rank) ∈ dot_S4096x5_S5x64_S4096x64_1_0_0_1_n_n.lhsBatch by decide), dif_pos (show (0 : Fin S4096x5.rank) ∈ dot_S4096x5_S5x64_S4096x64_1_0_0_1_n_n.lhsNonContracting by decide)]
        rfl
      | ⟨1, _⟩ => exact (dot_S4096x5_S5x64_S4096x64_1_0_0_1_n_n.lhsIdx_val_of_single rfl (ix2 p e) _).trans hk))
    (fun k => funext fun a => Fin.ext (by
      have hk := ValueIdx.contrEquiv1_symm_val dot_S4096x5_S5x64_S4096x64_1_0_0_1_n_n 5 rfl rfl k
      match a with
      | ⟨0, _⟩ => exact (dot_S4096x5_S5x64_S4096x64_1_0_0_1_n_n.rhsIdx_val_of_single rfl (ix2 p e) _).trans hk
      | ⟨1, _⟩ =>
        show (dot_S4096x5_S5x64_S4096x64_1_0_0_1_n_n.rhsIdx (ix2 p e) _ (1 : Fin S5x64.rank)).val = e.val
        unfold DotDims.rhsIdx
        rw [dif_neg (show ¬(1 : Fin S5x64.rank) ∈ dot_S4096x5_S5x64_S4096x64_1_0_0_1_n_n.rhsBatch by decide), dif_pos (show (1 : Fin S5x64.rank) ∈ dot_S4096x5_S5x64_S4096x64_1_0_0_1_n_n.rhsNonContracting by decide)]
        rfl))

/-- Hidden units [4096,64] times the transposed second-layer weights [64,32]. -/
theorem mm_hid_4096 (l : FVec Ideal S4096x64 .f32) (r : FVec Ideal S64x32 .f32) (p : Fin 4096) (e : Fin 32) :
    matmul dot_S4096x64_S64x32_S4096x32_1_0_0_1_n_n none l r (constant S4096x32 .f32 0x00000000#32) (ix2 p e)
      = ∑ k : Fin 64, l (ix2 p k) * r (ix2 k e) :=
  matmul_zero_sum dot_S4096x64_S64x32_S4096x32_1_0_0_1_n_n 64 rfl rfl l r (ix2 p e) (fun k => ix2 p k) (fun k => ix2 k e)
    (fun k => funext fun a => Fin.ext (by
      have hk := ValueIdx.contrEquiv1_symm_val dot_S4096x64_S64x32_S4096x32_1_0_0_1_n_n 64 rfl rfl k
      match a with
      | ⟨0, _⟩ =>
        show (dot_S4096x64_S64x32_S4096x32_1_0_0_1_n_n.lhsIdx (ix2 p e) _ (0 : Fin S4096x64.rank)).val = p.val
        unfold DotDims.lhsIdx
        rw [dif_neg (show ¬(0 : Fin S4096x64.rank) ∈ dot_S4096x64_S64x32_S4096x32_1_0_0_1_n_n.lhsBatch by decide), dif_pos (show (0 : Fin S4096x64.rank) ∈ dot_S4096x64_S64x32_S4096x32_1_0_0_1_n_n.lhsNonContracting by decide)]
        rfl
      | ⟨1, _⟩ => exact (dot_S4096x64_S64x32_S4096x32_1_0_0_1_n_n.lhsIdx_val_of_single rfl (ix2 p e) _).trans hk))
    (fun k => funext fun a => Fin.ext (by
      have hk := ValueIdx.contrEquiv1_symm_val dot_S4096x64_S64x32_S4096x32_1_0_0_1_n_n 64 rfl rfl k
      match a with
      | ⟨0, _⟩ => exact (dot_S4096x64_S64x32_S4096x32_1_0_0_1_n_n.rhsIdx_val_of_single rfl (ix2 p e) _).trans hk
      | ⟨1, _⟩ =>
        show (dot_S4096x64_S64x32_S4096x32_1_0_0_1_n_n.rhsIdx (ix2 p e) _ (1 : Fin S64x32.rank)).val = e.val
        unfold DotDims.rhsIdx
        rw [dif_neg (show ¬(1 : Fin S64x32.rank) ∈ dot_S4096x64_S64x32_S4096x32_1_0_0_1_n_n.rhsBatch by decide), dif_pos (show (1 : Fin S64x32.rank) ∈ dot_S4096x64_S64x32_S4096x32_1_0_0_1_n_n.rhsNonContracting by decide)]
        rfl))

/-- Normalised embeddings [512,32] against normalised embeddings [4096,32], contracting the embedding axis of both. -/
theorem mm_cos (l : FVec Ideal S512x32 .f32) (r : FVec Ideal S4096x32 .f32) (p : Fin 512) (e : Fin 4096) :
    matmul dot_S512x32_S4096x32_S512x4096_1_1_0_0_n_n none l r (constant S512x4096 .f32 0x00000000#32) (ix2 p e)
      = ∑ k : Fin 32, l (ix2 p k) * r (ix2 e k) :=
  matmul_zero_sum dot_S512x32_S4096x32_S512x4096_1_1_0_0_n_n 32 rfl rfl l r (ix2 p e) (fun k => ix2 p k) (fun k => ix2 e k)
    (fun k => funext fun a => Fin.ext (by
      have hk := ValueIdx.contrEquiv1_symm_val dot_S512x32_S4096x32_S512x4096_1_1_0_0_n_n 32 rfl rfl k
      match a with
      | ⟨0, _⟩ =>
        show (dot_S512x32_S4096x32_S512x4096_1_1_0_0_n_n.lhsIdx (ix2 p e) _ (0 : Fin S512x32.rank)).val = p.val
        unfold DotDims.lhsIdx
        rw [dif_neg (show ¬(0 : Fin S512x32.rank) ∈ dot_S512x32_S4096x32_S512x4096_1_1_0_0_n_n.lhsBatch by decide), dif_pos (show (0 : Fin S512x32.rank) ∈ dot_S512x32_S4096x32_S512x4096_1_1_0_0_n_n.lhsNonContracting by decide)]
        rfl
      | ⟨1, _⟩ => exact (dot_S512x32_S4096x32_S512x4096_1_1_0_0_n_n.lhsIdx_val_of_single rfl (ix2 p e) _).trans hk))
    (fun k => funext fun a => Fin.ext (by
      have hk := ValueIdx.contrEquiv1_symm_val dot_S512x32_S4096x32_S512x4096_1_1_0_0_n_n 32 rfl rfl k
      match a with
      | ⟨0, _⟩ =>
        show (dot_S512x32_S4096x32_S512x4096_1_1_0_0_n_n.rhsIdx (ix2 p e) _ (0 : Fin S4096x32.rank)).val = e.val
        unfold DotDims.rhsIdx
        rw [dif_neg (show ¬(0 : Fin S4096x32.rank) ∈ dot_S512x32_S4096x32_S512x4096_1_1_0_0_n_n.rhsBatch by decide), dif_pos (show (0 : Fin S4096x32.rank) ∈ dot_S512x32_S4096x32_S512x4096_1_1_0_0_n_n.rhsNonContracting by decide)]
        rfl
      | ⟨1, _⟩ => exact (dot_S512x32_S4096x32_S512x4096_1_1_0_0_n_n.rhsIdx_val_of_single rfl (ix2 p e) _).trans hk))

/-- Root confidences [512,16] against root confidences [4096,16], contracting the confidence axis of both. -/
theorem mm_conf (l : FVec Ideal S512x16 .f32) (r : FVec Ideal S4096x16 .f32) (p : Fin 512) (e : Fin 4096) :
    matmul dot_S512x16_S4096x16_S512x4096_1_1_0_0_n_n none l r (constant S512x4096 .f32 0x00000000#32) (ix2 p e)
      = ∑ k : Fin 16, l (ix2 p k) * r (ix2 e k) :=
  matmul_zero_sum dot_S512x16_S4096x16_S512x4096_1_1_0_0_n_n 16 rfl rfl l r (ix2 p e) (fun k => ix2 p k) (fun k => ix2 e k)
    (fun k => funext fun a => Fin.ext (by
      have hk := ValueIdx.contrEquiv1_symm_val dot_S512x16_S4096x16_S512x4096_1_1_0_0_n_n 16 rfl rfl k
      match a with
      | ⟨0, _⟩ =>
        show (dot_S512x16_S4096x16_S512x4096_1_1_0_0_n_n.lhsIdx (ix2 p e) _ (0 : Fin S512x16.rank)).val = p.val
        unfold DotDims.lhsIdx
        rw [dif_neg (show ¬(0 : Fin S512x16.rank) ∈ dot_S512x16_S4096x16_S512x4096_1_1_0_0_n_n.lhsBatch by decide), dif_pos (show (0 : Fin S512x16.rank) ∈ dot_S512x16_S4096x16_S512x4096_1_1_0_0_n_n.lhsNonContracting by decide)]
        rfl
      | ⟨1, _⟩ => exact (dot_S512x16_S4096x16_S512x4096_1_1_0_0_n_n.lhsIdx_val_of_single rfl (ix2 p e) _).trans hk))
    (fun k => funext fun a => Fin.ext (by
      have hk := ValueIdx.contrEquiv1_symm_val dot_S512x16_S4096x16_S512x4096_1_1_0_0_n_n 16 rfl rfl k
      match a with
      | ⟨0, _⟩ =>
        show (dot_S512x16_S4096x16_S512x4096_1_1_0_0_n_n.rhsIdx (ix2 p e) _ (0 : Fin S4096x16.rank)).val = e.val
        unfold DotDims.rhsIdx
        rw [dif_neg (show ¬(0 : Fin S4096x16.rank) ∈ dot_S512x16_S4096x16_S512x4096_1_1_0_0_n_n.rhsBatch by decide), dif_pos (show (0 : Fin S4096x16.rank) ∈ dot_S512x16_S4096x16_S512x4096_1_1_0_0_n_n.rhsNonContracting by decide)]
        rfl
      | ⟨1, _⟩ => exact (dot_S512x16_S4096x16_S512x4096_1_1_0_0_n_n.rhsIdx_val_of_single rfl (ix2 p e) _).trans hk))

end Cert.PairSim.Kern

end
-- ==== Proof.KernelLayout.lean ====
/-
  The kernel body's re-laying operations read at one entry.

  A slice of columns reads the source at the shifted column; a transpose swaps the two coordinates; broadcasting a
  single row (or a single column) repeats it down (or across) the array; a shape cast between [n], [n,1] and [1,n]
  keeps the entry's position along the one long axis; and a sum over the second axis of a two-axis array is, at row
  `p`, the sum of that row's entries.
-/
import proofs.«151634_j76819785056585_2_alg».proof.Proof.Gen.KernelIdeal.Skeleton
import proofs.«151634_j76819785056585_2_alg».proof.Proof.Spec
import Idealize.ShloMosaic.Lib.ValueIdx
import Idealize.ShloMosaic.Lib.Pipeline.Value
import Idealize.ShloMosaic.PureOps.Ideal.Laws

noncomputable section

namespace Cert.PairSim.Kern

open Idealize.ShloMosaic Idealize.ShloMosaic.ValueIdx Cert.KernelIdeal Cert.PairSim
open Cert.KernelIdeal.Facts₀ Cert.KernelIdeal.Facts

variable [hK : Cert.KernelIdeal.Facts]

/-! ## Column slices of a block of rows -/

/-- Feature `k` of row `p` of a 512-row block is column `1 + k`. -/
theorem slice_feat_512 (v : FVec Ideal S512x23 .f32) (p : Fin 512) (k : Fin 5) :
    extractStridedSlice S512x5 ![0, 1] v slices_S512x23_o0_1_S512x5 (ix2 p k) = v (ix2 p (featCol k)) :=
  extractStridedSlice_apply ![0, 1] v slices_S512x23_o0_1_S512x5 (ix2 p k) (ix2 p (featCol k)) (fun ax => by
    match ax with
    | ⟨0, _⟩ => exact (Nat.zero_add _).symm
    | ⟨1, _⟩ => rfl)

/-- The class label of row `p` of a 512-row block is column 6. -/
theorem slice_cls_512 (v : FVec Ideal S512x23 .f32) (p : Fin 512) :
    extractStridedSlice S512x1 ![0, 6] v slices_S512x23_o0_6_S512x1 (ix2 p 0) = v (ix2 p clsCol) :=
  extractStridedSlice_apply ![0, 6] v slices_S512x23_o0_6_S512x1 (ix2 p 0) (ix2 p clsCol) (fun ax => by
    match ax with
    | ⟨0, _⟩ => exact (Nat.zero_add _).symm
    | ⟨1, _⟩ => rfl)

/-- Confidence `c` of row `p` of a 512-row block is column `7 + c`. -/
theorem slice_conf_512 (v : FVec Ideal S512x23 .f32) (p : Fin 512) (c : Fin 16) :
    extractStridedSlice S512x16 ![0, 7] v slices_S512x23_o0_7_S512x16 (ix2 p c) = v (ix2 p (confCol c)) :=
  extractStridedSlice_apply ![0, 7] v slices_S512x23_o0_7_S512x16 (ix2 p c) (ix2 p (confCol c)) (fun ax => by
    match ax with
    | ⟨0, _⟩ => exact (Nat.zero_add _).symm
    | ⟨1, _⟩ => rfl)

/-- Feature `k` of row `s` of the whole 4096-row array is column `1 + k`. -/
theorem slice_feat_4096 (v : FVec Ideal S4096x23 .f32) (s : Fin 4096) (k : Fin 5) :
    extractStridedSlice S4096x5 ![0, 1] v slices_S4096x23_o0_1_S4096x5 (ix2 s k) = v (ix2 s (featCol k)) :=
  extractStridedSlice_apply ![0, 1] v slices_S4096x23_o0_1_S4096x5 (ix2 s k) (ix2 s (featCol k)) (fun ax => by
    match ax with
    | ⟨0, _⟩ => exact (Nat.zero_add _).symm
    | ⟨1, _⟩ => rfl)

/-- The class label of row `s` of the whole 4096-row array is column 6. -/
theorem slice_cls_4096 (v : FVec Ideal S4096x23 .f32) (s : Fin 4096) :
    extractStridedSlice S4096x1 ![0, 6] v slices_S4096x23_o0_6_S4096x1 (ix2 s 0) = v (ix2 s clsCol) :=
  extractStridedSlice_apply ![0, 6] v slices_S4096x23_o0_6_S4096x1 (ix2 s 0) (ix2 s clsCol) (fun ax => by
    match ax with
    | ⟨0, _⟩ => exact (Nat.zero_add _).symm
    | ⟨1, _⟩ => rfl)

/-- Confidence `c` of row `s` of the whole 4096-row array is column `7 + c`. -/
theorem slice_conf_4096 (v : FVec Ideal S4096x23 .f32) (s : Fin 4096) (c : Fin 16) :
    extractStridedSlice S4096x16 ![0, 7] v slices_S4096x23_o0_7_S4096x16 (ix2 s c) = v (ix2 s (confCol c)) :=
  extractStridedSlice_apply ![0, 7] v slices_S4096x23_o0_7_S4096x16 (ix2 s c) (ix2 s (confCol c)) (fun ax => by
    match ax with
    | ⟨0, _⟩ => exact (Nat.zero_add _).symm
    | ⟨1, _⟩ => rfl)

/-! ## The transposed weights -/

/-- The transposed first-layer weights at `(k, h)` are the weights at `(h, k)`. -/
theorem transpose_w1 (v : FVec Ideal S64x5 .f32) (k : Fin 5) (h : Fin 64) :
    transpose S5x64 [1, 0] v transposes_S64x5_p1_0_S5x64 (ix2 k h) = v (ix2 h k) :=
  transpose_apply [1, 0] v transposes_S64x5_p1_0_S5x64 (ix2 k h) (ix2 h k) (fun b => by
    match b with
    | ⟨0, _⟩ => rfl
    | ⟨1, _⟩ => rfl)

/-- The transposed second-layer weights at `(h, e)` are the weights at `(e, h)`. -/
theorem transpose_w2 (v : FVec Ideal S32x64 .f32) (h : Fin 64) (e : Fin 32) :
    transpose S64x32 [1, 0] v transposes_S32x64_p1_0_S64x32 (ix2 h e) = v (ix2 e h) :=
  transpose_apply [1, 0] v transposes_S32x64_p1_0_S64x32 (ix2 h e) (ix2 e h) (fun b => by
    match b with
    | ⟨0, _⟩ => rfl
    | ⟨1, _⟩ => rfl)

/-! ## One row repeated down the array -/

/-- The first-layer bias row repeated over 512 rows. -/
theorem bcast_b1_512 (v : FVec Ideal S1x64 .f32) (p : Fin 512) (h : Fin 64) :
    broadcastTo S512x64 v broadcasts_S1x64_S512x64 (ix2 p h) = v (ix2 0 h) :=
  broadcastTo_apply v broadcasts_S1x64_S512x64 (ix2 p h) (ix2 0 h) (fun a => by
    match a with
    | ⟨0, _⟩ => rfl
    | ⟨1, _⟩ => rfl)

/-- The second-layer bias row repeated over 512 rows. -/
theorem bcast_b2_512 (v : FVec Ideal S1x32 .f32) (p : Fin 512) (e : Fin 32) :
    broadcastTo S512x32 v broadcasts_S1x32_S512x32 (ix2 p e) = v (ix2 0 e) :=
  broadcastTo_apply v broadcasts_S1x32_S512x32 (ix2 p e) (ix2 0 e) (fun a => by
    match a with
    | ⟨0, _⟩ => rfl
    | ⟨1, _⟩ => rfl)

/-- The first-layer bias row repeated over 4096 rows. -/
theorem bcast_b1_4096 (v : FVec Ideal S1x64 .f32) (s : Fin 4096) (h : Fin 64) :
    broadcastTo S4096x64 v broadcasts_S1x64_S4096x64 (ix2 s h) = v (ix2 0 h) :=
  broadcastTo_apply v broadcasts_S1x64_S4096x64 (ix2 s h) (ix2 0 h) (fun a => by
    match a with
    | ⟨0, _⟩ => rfl
    | ⟨1, _⟩ => rfl)

/-- The second-layer bias row repeated over 4096 rows. -/
theorem bcast_b2_4096 (v : FVec Ideal S1x32 .f32) (s : Fin 4096) (e : Fin 32) :
    broadcastTo S4096x32 v broadcasts_S1x32_S4096x32 (ix2 s e) = v (ix2 0 e) :=
  broadcastTo_apply v broadcasts_S1x32_S4096x32 (ix2 s e) (ix2 0 e) (fun a => by
    match a with
    | ⟨0, _⟩ => rfl
    | ⟨1, _⟩ => rfl)

/-- The row of the second array's labels repeated over 512 rows. -/
theorem bcast_cls_row (v : FVec Ideal S1x4096 .f32) (p : Fin 512) (s : Fin 4096) :
    broadcastTo S512x4096 v broadcasts_S1x4096_S512x4096 (ix2 p s) = v (ix2 0 s) :=
  broadcastTo_apply v broadcasts_S1x4096_S512x4096 (ix2 p s) (ix2 0 s) (fun a => by
    match a with
    | ⟨0, _⟩ => rfl
    | ⟨1, _⟩ => rfl)

/-! ## One column repeated across the array -/

/-- The column of 512 norms repeated across the 32 embedding coordinates. -/
theorem bcast_nrm_512 (v : FVec Ideal S512x1 .f32) (p : Fin 512) (e : Fin 32) :
    broadcastTo S512x32 v broadcasts_S512x1_S512x32 (ix2 p e) = v (ix2 p 0) :=
  broadcastTo_apply v broadcasts_S512x1_S512x32 (ix2 p e) (ix2 p 0) (fun a => by
    match a with
    | ⟨0, _⟩ => rfl
    | ⟨1, _⟩ => rfl)

/-- The column of 4096 norms repeated across the 32 embedding coordinates. -/
theorem bcast_nrm_4096 (v : FVec Ideal S4096x1 .f32) (s : Fin 4096) (e : Fin 32) :
    broadcastTo S4096x32 v broadcasts_S4096x1_S4096x32 (ix2 s e) = v (ix2 s 0) :=
  broadcastTo_apply v broadcasts_S4096x1_S4096x32 (ix2 s e) (ix2 s 0) (fun a => by
    match a with
    | ⟨0, _⟩ => rfl
    | ⟨1, _⟩ => rfl)

/-- The column of the first array's 512 labels repeated across 4096 columns. -/
theorem bcast_cls_col (v : FVec Ideal S512x1 .f32) (p : Fin 512) (s : Fin 4096) :
    broadcastTo S512x4096 v broadcasts_S512x1_S512x4096 (ix2 p s) = v (ix2 p 0) :=
  broadcastTo_apply v broadcasts_S512x1_S512x4096 (ix2 p s) (ix2 p 0) (fun a => by
    match a with
    | ⟨0, _⟩ => rfl
    | ⟨1, _⟩ => rfl)

/-! ## Shape casts along one long axis -/

/-- 512 numbers as a column: entry `(p, 0)` is number `p`. -/
theorem cast_col_512 (v : FVec Ideal S512 .f32) (p : Fin 512) :
    shapeCast S512x1 v shapeCasts_S512_S512x1 (ix2 p 0) = v (ix1 p) :=
  shapeCast_apply v shapeCasts_S512_S512x1 (ix2 p 0) (ix1 p) (by
    rw [Shape.rowMajor_val_one, Shape.rowMajor_val_two]
    show p.val = p.val * 1 + 0
    omega)

/-- 4096 numbers as a column: entry `(s, 0)` is number `s`. -/
theorem cast_col_4096 (v : FVec Ideal S4096 .f32) (s : Fin 4096) :
    shapeCast S4096x1 v shapeCasts_S4096_S4096x1 (ix2 s 0) = v (ix1 s) :=
  shapeCast_apply v shapeCasts_S4096_S4096x1 (ix2 s 0) (ix1 s) (by
    rw [Shape.rowMajor_val_one, Shape.rowMajor_val_two]
    show s.val = s.val * 1 + 0
    omega)

/-- A column of 4096 numbers laid out as a row: entry `(0, s)` is the column's entry `(s, 0)`. -/
theorem cast_row_4096 (v : FVec Ideal S4096x1 .f32) (s : Fin 4096) :
    shapeCast S1x4096 v shapeCasts_S4096x1_S1x4096 (ix2 0 s) = v (ix2 s 0) :=
  shapeCast_apply v shapeCasts_S4096x1_S1x4096 (ix2 0 s) (ix2 s 0) (by
    rw [Shape.rowMajor_val_two, Shape.rowMajor_val_two]
    show s.val * 1 + 0 = 0 * 4096 + s.val
    omega)

/-! ## Row sums -/

/-- The sum over the 32 coordinates of each of 512 rows, at row `p`. -/
theorem rowsum_512 (v : FVec Ideal S512x32 .f32) (p : Fin 512) :
    multiReduction .add [1] S512 v 0x00000000#32 reduces_S512x32_S512 (.inl rfl) rfl (ix1 p) = ∑ k : Fin 32, v (ix2 p k) := by
  refine (Ideal.multiReduction_add_single v 0x00000000#32 reduces_S512x32_S512 (.inl rfl) rfl (ix1 p)).trans ?_
  refine Finset.sum_congr rfl fun k _ => congrArg v (funext fun a => Fin.ext (by
    match a with
    | ⟨0, _⟩ => rfl
    | ⟨1, _⟩ => rfl))

/-- The sum over the 32 coordinates of each of 4096 rows, at row `s`. -/
theorem rowsum_4096 (v : FVec Ideal S4096x32 .f32) (s : Fin 4096) :
    multiReduction .add [1] S4096 v 0x00000000#32 reduces_S4096x32_S4096 (.inl rfl) rfl (ix1 s) = ∑ k : Fin 32, v (ix2 s k) := by
  refine (Ideal.multiReduction_add_single v 0x00000000#32 reduces_S4096x32_S4096 (.inl rfl) rfl (ix1 s)).trans ?_
  refine Finset.sum_congr rfl fun k _ => congrArg v (funext fun a => Fin.ext (by
    match a with
    | ⟨0, _⟩ => rfl
    | ⟨1, _⟩ => rfl))

end Cert.PairSim.Kern

end
-- ==== Proof.KernelRows.lean ====
/-
  The kernel body's arithmetic at one entry.

  The body works on a block of 512 rows of the first array and on all 4096 rows of the second. Read at row `p` of
  the block and row `s` of the second array, its stages are the specification's row quantities: the two-layer
  perceptron gives `emb` of the row's features (for the block, and again for the whole second array); the root of the
  row sum of squares held above `tiny` is `nrm`; and the stored value is the product of the label mask, the inner
  product of the roots of the CLAMPED confidences, and the inner product of the two normalised embeddings.
-/
import proofs.«151634_j76819785056585_2_alg».proof.Proof.KernelOps
import proofs.«151634_j76819785056585_2_alg».proof.Proof.KernelLayout

noncomputable section

namespace Cert.PairSim.Kern

open Idealize.ShloMosaic Idealize.ShloMosaic.ValueIdx Cert.KernelIdeal Cert.KernelIdeal.Gen Cert.PairSim
open Cert.KernelIdeal.Facts₀ Cert.KernelIdeal.Facts

variable [hK : Cert.KernelIdeal.Facts]

/-- The perceptron on a block of 512 rows: entry `(p, e)` is coordinate `e` of the embedding of row `p`'s features.
    The biases arrive as one-row arrays. -/
theorem emb_tile (v0 : Vec Ideal S512x23 .f32) (v8 : Vec Ideal S64x5 .f32) (v9 : Vec Ideal S1x64 .f32)
    (v11 : Vec Ideal S32x64 .f32) (v12 : Vec Ideal S1x32 .f32) (p : Fin 512) (e : Fin 32) :
    k0_pay8 (F := Ideal) v0 v8 v9 v11 v12 (ix2 p e) =
      emb (fun k => v0 (ix2 p (featCol k))) (fun h k => v8 (ix2 h k)) (fun h => v9 (ix2 0 h))
        (fun e h => v11 (ix2 e h)) (fun e => v12 (ix2 0 e)) e := by
  unfold k0_pay8 k0_pay6 k0_pay7 emb
  dsimp only
  refine congrArg₂ (· + ·) ?_ ?_
  · refine (mm_hid_512 _ _ p e).trans (Finset.sum_congr rfl fun h _ => congrArg₂ (· * ·) ?_ (transpose_w2 v11 h e))
    unfold hid
    refine congrArg₂ max (congrArg₂ (· + ·) ?_ ?_) Ideal.ofBits_zero_f32
    · exact (mm_feat_512 _ _ p h).trans
        (Finset.sum_congr rfl fun k _ => congrArg₂ (· * ·) (slice_feat_512 v0 p k) (transpose_w1 v8 k h))
    · exact (bcast_b1_512 _ p h).trans (congrFun (shapeCast_self v9 _) _)
  · exact (bcast_b2_512 _ p e).trans (congrFun (shapeCast_self v12 _) _)

/-- The perceptron on all 4096 rows of the second array. -/
theorem emb_all (v4 : Vec Ideal S4096x23 .f32) (v8 : Vec Ideal S64x5 .f32) (v9 : Vec Ideal S1x64 .f32)
    (v11 : Vec Ideal S32x64 .f32) (v12 : Vec Ideal S1x32 .f32) (s : Fin 4096) (e : Fin 32) :
    k0_pay9 (F := Ideal) v4 v8 v9 v11 v12 (ix2 s e) =
      emb (fun k => v4 (ix2 s (featCol k))) (fun h k => v8 (ix2 h k)) (fun h => v9 (ix2 0 h))
        (fun e h => v11 (ix2 e h)) (fun e => v12 (ix2 0 e)) e := by
  unfold k0_pay9 k0_pay6 k0_pay7 emb
  dsimp only
  refine congrArg₂ (· + ·) ?_ ?_
  · refine (mm_hid_4096 _ _ s e).trans (Finset.sum_congr rfl fun h _ => congrArg₂ (· * ·) ?_ (transpose_w2 v11 h e))
    unfold hid
    refine congrArg₂ max (congrArg₂ (· + ·) ?_ ?_) Ideal.ofBits_zero_f32
    · exact (mm_feat_4096 _ _ s h).trans
        (Finset.sum_congr rfl fun k _ => congrArg₂ (· * ·) (slice_feat_4096 v4 s k) (transpose_w1 v8 k h))
    · exact (bcast_b1_4096 _ s h).trans (congrFun (shapeCast_self v9 _) _)
  · exact (bcast_b2_4096 _ s e).trans (congrFun (shapeCast_self v12 _) _)

/-- The root of the sum of squares of the block's embeddings, as a column: entry `(p, 0)`. -/
theorem rootsq_tile (v0 : Vec Ideal S512x23 .f32) (v8 : Vec Ideal S64x5 .f32) (v9 : Vec Ideal S1x64 .f32)
    (v11 : Vec Ideal S32x64 .f32) (v12 : Vec Ideal S1x32 .f32) (p : Fin 512) :
    k0_pay10 (F := Ideal) v0 v8 v9 v11 v12 (ix2 p 0) =
      Ideal.sqrt (∑ e : Fin 32,
        emb (fun k => v0 (ix2 p (featCol k))) (fun h k => v8 (ix2 h k)) (fun h => v9 (ix2 0 h))
          (fun e h => v11 (ix2 e h)) (fun e => v12 (ix2 0 e)) e
        * emb (fun k => v0 (ix2 p (featCol k))) (fun h k => v8 (ix2 h k)) (fun h => v9 (ix2 0 h))
          (fun e h => v11 (ix2 e h)) (fun e => v12 (ix2 0 e)) e) := by
  unfold k0_pay10
  dsimp only
  refine congrArg Ideal.sqrt ?_
  refine (cast_col_512 _ p).trans ((rowsum_512 _ p).trans (Finset.sum_congr rfl fun e _ => ?_))
  exact congrArg₂ (· * ·) (emb_tile v0 v8 v9 v11 v12 p e) (emb_tile v0 v8 v9 v11 v12 p e)

/-- The stored value at `(p, s)`, from the stages it reads: the label columns `v2`, `v6`, the confidences `v3`,
    `v7`, the two embeddings `v23`, `v33`, and the block's root-of-squares column `v37` with its clamp `v38`. -/
theorem stored_apply (v2 : FVec Ideal S512x1 .f32) (v3 : FVec Ideal S512x16 .f32) (v6 : FVec Ideal S4096x1 .f32)
    (v7 : FVec Ideal S4096x16 .f32) (v23 : FVec Ideal S512x32 .f32) (v33 : FVec Ideal S4096x32 .f32)
    (v37 v38 : FVec Ideal S512x1 .f32) (p : Fin 512) (s : Fin 4096) :
    k0_pay1 (F := Ideal) v2 v3 v6 v7 v23 v33 v37 v38 (ix2 p s) =
      ((((Ideal.cmp .oeq (v2 (ix2 p 0)) (v6 (ix2 s 0))).setWidth 32).toInt : ℝ) : EReal)
        * (∑ c : Fin 16, Ideal.sqrt (max (v3 (ix2 p c)) 0) * Ideal.sqrt (max (v7 (ix2 s c)) 0))
        * (∑ e : Fin 32, Ideal.div (v23 (ix2 p e)) (max (v37 (ix2 p 0)) (v38 (ix2 p 0)))
            * Ideal.div (v33 (ix2 s e))
                (max (Ideal.sqrt (∑ e' : Fin 32, v33 (ix2 s e') * v33 (ix2 s e'))) tiny)) := by
  unfold k0_pay1
  dsimp only
  refine congrArg₂ (· * ·) (congrArg₂ (· * ·) ?_ ?_) ?_
  · exact congrArg (fun b : BitVec 1 => (((b.setWidth 32).toInt : ℝ) : EReal))
      (congrArg₂ (Ideal.cmp .oeq) (bcast_cls_col v2 p s) ((bcast_cls_row _ p s).trans (cast_row_4096 v6 s)))
  · refine (mm_conf _ _ p s).trans (Finset.sum_congr rfl fun c _ => congrArg₂ (· * ·) ?_ ?_)
    · exact congrArg Ideal.sqrt (congrArg (max (v3 (ix2 p c))) Ideal.ofBits_zero_f32)
    · exact congrArg Ideal.sqrt (congrArg (max (v7 (ix2 s c))) Ideal.ofBits_zero_f32)
  · refine (mm_cos _ _ p s).trans (Finset.sum_congr rfl fun e _ => congrArg₂ (· * ·) ?_ ?_)
    · exact congrArg (Ideal.div (v23 (ix2 p e))) (bcast_nrm_512 _ p e)
    · refine congrArg (Ideal.div (v33 (ix2 s e))) ((bcast_nrm_4096 _ s e).trans ?_)
      exact congrArg (max · tiny) (congrArg Ideal.sqrt ((cast_col_4096 _ s).trans (rowsum_4096 _ s)))

end Cert.PairSim.Kern

end
-- ==== Proof.Tiles.lean ====
/-
  From the kernel's blocks of rows to the whole result array.

  The kernel runs once per block of 512 rows of the first array (eight blocks), each time against the whole second
  array, the weights and the two biases (the biases reshaped to one-row arrays before the region starts). Entry
  `(p, s)` of what the body stores at block `t` is `pair` of row `512 t + p` of the first array and row `s` of the
  second, so each block written back is the corresponding block of rows of `G`; the eight blocks cover all 4096 rows,
  hence the result array ends holding `G` of the argument arrays. The confidences' non-negativity is a hypothesis
  here; the precondition supplies it.
-/
import proofs.«151634_j76819785056585_2_alg».proof.Proof.KernelRows
import proofs.«151634_j76819785056585_2_alg».proof.Proof.Gen.KernelIdeal.Value
import Idealize.ShloMosaic.Lib.StableHlo.Run
import Idealize.ShloMosaic.Lib.ValueLayout

noncomputable section

namespace Cert.PairSim.Tile

open Idealize.ShloMosaic Idealize.ShloMosaic.ValueIdx Idealize.ShloMosaic.TcCoe Idealize.SL.Sem
open Cert.KernelIdeal Cert.KernelIdeal.Gen Cert.PairSim Cert.PairSim.Kern
open Idealize.ShloMosaic.Pipeline (Dat)

variable (m : (ℓ : Loc nD τ sig) → Buf (Elt Ideal) ℓ)

/-- The origin of a two-axis array, spelt the two ways the library uses. -/
theorem hz : (![0, 0] : Fin 2 → Nat) = fun _ => 0 := funext fun a => by fin_cases a <;> rfl

/-- The blocks' index maps, decided over the eight grid points: the first array's block moves with the output's block along the rows and has block-column 0; every other input has the one block (0, 0); the output's block-column is 0 and its block-row is at most 7. -/
theorem idx_facts : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 7 :=
  (by decide +kernel : ∀ t : Fin grid0.N, _)

/-- Each of the eight block-rows of the output is some grid point's. -/
theorem idx_onto : ∀ q : Fin 8, ∃ t : Fin cfg0.N, win0_6.index t = ![q.val, 0] :=
  (by decide +kernel : ∀ q : Fin 8, ∃ t : Fin grid0.N, win0_6.index t = ![q.val, 0])

/-- The array row that row `p` of point `t`'s block is. -/
def rowOf (t : Fin cfg0.N) (p : Fin 512) : Fin 4096 :=
  ⟨win0_6.index t (0 : Fin 2) * 512 + p.val, by have := (idx_facts t).2.2.2.2.2.2.2.2.2.2.2.2.2; have := p.isLt; omega⟩

/-- Row `p` of point `t`'s block of the first array is row `rowOf t p` of the array. -/
theorem blk0 (c : Dev nD) (t : Fin cfg0.N) (p : Fin 512) (col : Fin 23) :
    iblk m c 0 t (ix2 p col) = m ((c : Thread nD τ).loc main_arg0) (ix2 (rowOf t p) col) := by
  obtain ⟨e0, e1, -⟩ := idx_facts t
  show V m c main_arg0 (((cfg0.win 0).blk t).view.emb (ix2 p col)) = _
  rw [V_main_arg0]
  refine congrArg _ (funext fun a => Fin.ext ?_)
  match a with
  | ⟨0, _⟩ => show win0_0.index t (0 : Fin 2) * 512 + 1 * p.val = win0_6.index t (0 : Fin 2) * 512 + p.val; omega
  | ⟨1, _⟩ => show win0_0.index t (1 : Fin 2) * 23 + 1 * col.val = col.val; omega

/-- The second array is staged whole: its block at any point is the array. -/
theorem blk1 (c : Dev nD) (t : Fin cfg0.N) (s : Fin 4096) (col : Fin 23) :
    iblk m c 1 t (ix2 s col) = m ((c : Thread nD τ).loc main_arg1) (ix2 s col) := by
  obtain ⟨-, -, e0, e1, -⟩ := idx_facts t
  show V m c main_arg1 (((cfg0.win 1).blk t).view.emb (ix2 s col)) = _
  rw [V_main_arg1]
  refine congrArg _ (funext fun a => Fin.ext ?_)
  match a with
  | ⟨0, _⟩ => show win0_1.index t (0 : Fin 2) * 4096 + 1 * s.val = s.val; omega
  | ⟨1, _⟩ => show win0_1.index t (1 : Fin 2) * 23 + 1 * col.val = col.val; omega

/-- The first bias reaches the region as a one-row array: the reshape of the bias vector that precedes the region. -/
theorem bias1 (c : Dev nD) : (V m c main_v0 : S1x64.Idx → EReal) = shapeCast S1x64 (m ((c : Thread nD τ).loc main_arg3)) Facts₀.shapeCasts_S64_S1x64 := by
  dsimp only [Gen.V, Gen.hostOps0]; after_results; rfl

/-- So entry `(0, h)` of its block is entry `h` of the bias vector. -/
theorem blk3 (c : Dev nD) (t : Fin cfg0.N) (h : Fin 64) :
    iblk m c 3 t (ix2 0 h) = m ((c : Thread nD τ).loc main_arg3) (ix1 h) := by
  obtain ⟨-, -, -, -, -, -, e0, e1, -⟩ := idx_facts t
  show V m c main_v0 (((cfg0.win 3).blk t).view.emb (ix2 0 h)) = _
  have he : ((cfg0.win 3).blk t).view.emb (ix2 (0 : Fin 1) h) = ix2 0 h := funext fun a => Fin.ext (by
    match a with
    | ⟨0, _⟩ => show win0_3.index t (0 : Fin 2) * 1 + 1 * 0 = 0; omega
    | ⟨1, _⟩ => show win0_3.index t (1 : Fin 2) * 64 + 1 * h.val = h.val; omega)
  rw [he]
  refine (congrFun (bias1 m c) (ix2 0 h)).trans ?_
  exact shapeCast_apply _ Facts₀.shapeCasts_S64_S1x64 (ix2 0 h) (ix1 h) (by
    rw [Shape.rowMajor_val_one, Shape.rowMajor_val_two]
    show h.val = 0 * 64 + h.val
    omega)

/-- The first-layer weights are staged whole. -/
theorem blk2 (c : Dev nD) (t : Fin cfg0.N) (h : Fin 64) (k : Fin 5) :
    iblk m c 2 t (ix2 h k) = m ((c : Thread nD τ).loc main_arg2) (ix2 h k) := by
  obtain ⟨-, -, -, -, e0, e1, -⟩ := idx_facts t
  show V m c main_arg2 (((cfg0.win 2).blk t).view.emb (ix2 h k)) = _
  rw [V_main_arg2]
  refine congrArg _ (funext fun a => Fin.ext ?_)
  match a with
  | ⟨0, _⟩ => show win0_2.index t (0 : Fin 2) * 64 + 1 * h.val = h.val; omega
  | ⟨1, _⟩ => show win0_2.index t (1 : Fin 2) * 5 + 1 * k.val = k.val; omega

/-- The second-layer weights are staged whole. -/
theorem blk4 (c : Dev nD) (t : Fin cfg0.N) (e : Fin 32) (h : Fin 64) :
    iblk m c 4 t (ix2 e h) = m ((c : Thread nD τ).loc main_arg4) (ix2 e h) := by
  obtain ⟨-, -, -, -, -, -, -, -, e0, e1, -⟩ := idx_facts t
  show V m c main_arg4 (((cfg0.win 4).blk t).view.emb (ix2 e h)) = _
  rw [V_main_arg4]
  refine congrArg _ (funext fun a => Fin.ext ?_)
  match a with
  | ⟨0, _⟩ => show win0_4.index t (0 : Fin 2) * 32 + 1 * e.val = e.val; omega
  | ⟨1, _⟩ => show win0_4.index t (1 : Fin 2) * 64 + 1 * h.val = h.val; omega

/-- The second bias reaches the region as a one-row array: the reshape of the bias vector that precedes the region. -/
theorem bias2 (c : Dev nD) : (V m c main_v1 : S1x32.Idx → EReal) = shapeCast S1x32 (m ((c : Thread nD τ).loc main_arg5)) Facts₀.shapeCasts_S32_S1x32 := by
  dsimp only [Gen.V, Gen.hostOps0]; after_results; rfl

/-- So entry `(0, e)` of its block is entry `e` of the bias vector. -/
theorem blk5 (c : Dev nD) (t : Fin cfg0.N) (e : Fin 32) :
    iblk m c 5 t (ix2 0 e) = m ((c : Thread nD τ).loc main_arg5) (ix1 e) := by
  obtain ⟨-, -, -, -, -, -, -, -, -, -, e0, e1, -⟩ := idx_facts t
  show V m c main_v1 (((cfg0.win 5).blk t).view.emb (ix2 0 e)) = _
  have he : ((cfg0.win 5).blk t).view.emb (ix2 (0 : Fin 1) e) = ix2 0 e := funext fun a => Fin.ext (by
    match a with
    | ⟨0, _⟩ => show win0_5.index t (0 : Fin 2) * 1 + 1 * 0 = 0; omega
    | ⟨1, _⟩ => show win0_5.index t (1 : Fin 2) * 32 + 1 * e.val = e.val; omega)
  rw [he]
  refine (congrFun (bias2 m c) (ix2 0 e)).trans ?_
  exact shapeCast_apply _ Facts₀.shapeCasts_S32_S1x32 (ix2 0 e) (ix1 e) (by
    rw [Shape.rowMajor_val_one, Shape.rowMajor_val_two]
    show e.val = 0 * 32 + e.val
    omega)

/-- The value the body stores at `(p, s)` is `pair` of row `p` of the first block and row `s` of the second array, when the confidences of those two rows are non-negative: the mask in its widened spelling is `same`, the inner product of the roots of the CLAMPED confidences is `overlap` (this is the one place the non-negativity is used), and the inner product of the normalised embeddings is `cosine`. -/
theorem body_entry (x0 : Vec Ideal S512x23 .f32) (x1 : Vec Ideal S4096x23 .f32) (x2 : Vec Ideal S64x5 .f32)
    (x3 : Vec Ideal S1x64 .f32) (x4 : Vec Ideal S32x64 .f32) (x5 : Vec Ideal S1x32 .f32) (p : Fin 512) (s : Fin 4096)
    (h0 : ∀ c, 0 ≤ x0 (ix2 p (confCol c))) (h1 : ∀ c, 0 ≤ x1 (ix2 s (confCol c))) :
    k0_pay1 (F := Ideal) (k0_pay2 x0) (k0_pay3 x0) (k0_pay4 x1) (k0_pay5 x1) (k0_pay8 x0 x2 x3 x4 x5)
        (k0_pay9 x1 x2 x3 x4 x5) (k0_pay10 x0 x2 x3 x4 x5) k0_pay11 (ix2 p s)
      = pair (x0 (ix2 p clsCol)) (x1 (ix2 s clsCol)) (fun c => x0 (ix2 p (confCol c))) (fun c => x1 (ix2 s (confCol c)))
          (fun k => x0 (ix2 p (featCol k))) (fun k => x1 (ix2 s (featCol k))) (fun h k => x2 (ix2 h k))
          (fun h => x3 (ix2 0 h)) (fun e h => x4 (ix2 e h)) (fun e => x5 (ix2 0 e)) := by
  refine (stored_apply _ _ _ _ _ _ _ _ p s).trans ?_
  unfold pair
  refine congrArg₂ (· * ·) (congrArg₂ (· * ·) ?_ ?_) ?_
  · exact (congrArg (fun b : BitVec 1 => (((b.setWidth 32).toInt : ℝ) : EReal))
      (congrArg₂ (Ideal.cmp .oeq) (slice_cls_512 x0 p) (slice_cls_4096 x1 s))).trans (same_widened _ _)
  · refine (Finset.sum_congr rfl fun c _ => ?_).trans (overlap_clamped _ _ h0 h1)
    exact congrArg₂ (· * ·) (congrArg Ideal.sqrt (congrArg (max · 0) (slice_conf_512 x0 p c)))
      (congrArg Ideal.sqrt (congrArg (max · 0) (slice_conf_4096 x1 s c)))
  · unfold cosine nrm
    refine Finset.sum_congr rfl fun e _ => congrArg₂ (· * ·) ?_ ?_
    · exact congrArg₂ Ideal.div (emb_tile x0 x2 x3 x4 x5 p e) (congrArg (max · tiny) (rootsq_tile x0 x2 x3 x4 x5 p))
    · exact congrArg₂ Ideal.div (emb_all x1 x2 x3 x4 x5 s e) (congrArg (max · tiny) (congrArg Ideal.sqrt
        (Finset.sum_congr rfl fun e' _ => congrArg₂ (· * ·) (emb_all x1 x2 x3 x4 x5 s e') (emb_all x1 x2 x3 x4 x5 s e'))))

/-- What grid point `t` writes back is block `t` of `G` of the argument arrays: entry `(p, s)` of the block is entry `(rowOf t p, s)` of the array, and every input block is read where that entry's rows lie. -/
theorem flushed_eq (c : Dev nD) (t : Fin cfg0.N)
    (h0 : ∀ (r : Fin 4096) (cc : Fin 16), (0 : EReal) ≤ m ((c : Thread nD τ).loc main_arg0) (ix2 r (confCol cc)))
    (h1 : ∀ (r : Fin 4096) (cc : Fin 16), (0 : EReal) ≤ m ((c : Thread nD τ).loc main_arg1) (ix2 r (confCol cc))) :
    (dats m 0 c).flushed 6 t = ((cfg0.win 6).blk t).view.read (Elt Ideal)
      (G (m ((c : Thread nD τ).loc main_arg0)) (m ((c : Thread nD τ).loc main_arg1)) (m ((c : Thread nD τ).loc main_arg2))
         (m ((c : Thread nD τ).loc main_arg3)) (m ((c : Thread nD τ).loc main_arg4)) (m ((c : Thread nD τ).loc main_arg5))) := by
  rw [Cert.KernelIdeal.Value.flushed6]
  unfold out0_6
  rw [View.canon_unit_zero hz]
  simp only [View.ld_unit_zero (S := S512x23) hz, View.ld_unit_zero (S := S4096x23) hz, View.ld_unit_zero (S := S64x5) hz,
    View.ld_unit_zero (S := S1x64) hz, View.ld_unit_zero (S := S32x64) hz, View.ld_unit_zero (S := S1x32) hz]
  funext j
  obtain ⟨p, s, rfl⟩ : ∃ (p : Fin 512) (s : Fin 4096), j = ix2 p s := ⟨j 0, j 1, eq_ix2 j⟩
  obtain ⟨-, -, -, -, -, -, -, -, -, -, -, -, e61, -⟩ := idx_facts t
  have he : ((cfg0.win 6).blk t).view.emb (ix2 p s) = ix2 (rowOf t p) s := funext fun a => Fin.ext (by
    match a with
    | ⟨0, _⟩ => show win0_6.index t (0 : Fin 2) * 512 + 1 * p.val = win0_6.index t (0 : Fin 2) * 512 + p.val; omega
    | ⟨1, _⟩ => show win0_6.index t (1 : Fin 2) * 4096 + 1 * s.val = s.val; omega)
  refine (body_entry (iblk m c 0 t) (iblk m c 1 t) (iblk m c 2 t) (iblk m c 3 t) (iblk m c 4 t) (iblk m c 5 t) p s
    (fun cc => by rw [blk0 m c t p (confCol cc)]; exact h0 _ _) (fun cc => by rw [blk1 m c t s (confCol cc)]; exact h1 _ _)).trans ?_
  refine Eq.trans ?_ (congrArg (G (m ((c : Thread nD τ).loc main_arg0)) (m ((c : Thread nD τ).loc main_arg1)) (m ((c : Thread nD τ).loc main_arg2))
         (m ((c : Thread nD τ).loc main_arg3)) (m ((c : Thread nD τ).loc main_arg4)) (m ((c : Thread nD τ).loc main_arg5))) he).symm
  rw [G_apply]
  simp only [blk0 m c t, blk1 m c t, blk2 m c t, blk3 m c t, blk4 m c t, blk5 m c t]

/-- An index of the result array lies in point `t`'s block iff each coordinate lies in the block's range on its axis. -/
theorem mem_blk (t : Fin cfg0.N) (i : S4096x4096.Idx) :
    i ∈ ((cfg0.win 6).blk t).view.set ↔ ∀ a : Fin 2, win0_6.index t a * S512x4096.size a ≤ (i a).val ∧ (i a).val < win0_6.index t a * S512x4096.size a + S512x4096.size a := by
  show i ∈ ((View.whole main_v2).slice (win0_6.rect t)).set ↔ _
  rw [View.set_slice_whole, Rect.mem_set_unit]
  exact Iff.rfl

/-- The eight blocks of 512 rows cover the 4096 rows: the block holding row `r` is block `r / 512`. -/
theorem cover (i : S4096x4096.Idx) : ∃ t : Fin cfg0.N, (cfg0.win 6).flush t = true ∧ i ∈ ((cfg0.win 6).blk t).view.set := by
  have hi0 : (i 0).val < 4096 := (i 0).isLt
  have hi1 : (i 1).val < 4096 := (i 1).isLt
  obtain ⟨t, ht⟩ := idx_onto ⟨(i 0).val / 512, by omega⟩
  have q0 : win0_6.index t (0 : Fin 2) = (i 0).val / 512 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 4096 ≤ (i 1).val ∧ (i 1).val < win0_6.index t (1 : Fin 2) * 4096 + 4096; omega

/-- So the result array ends holding `G` of the argument arrays. -/
theorem final (c : Dev nD)
    (h0 : ∀ (r : Fin 4096) (cc : Fin 16), (0 : EReal) ≤ m ((c : Thread nD τ).loc main_arg0) (ix2 r (confCol cc)))
    (h1 : ∀ (r : Fin 4096) (cc : Fin 16), (0 : EReal) ≤ m ((c : Thread nD τ).loc main_arg1) (ix2 r (confCol cc))) :
    (dats m 0 c).arrAt 6 cfg0.N =
      G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed_eq m c t h0 h1) cover

/-- The kernel's run, read: every execution ends with the result array at `G` of the argument arrays and the
    arguments unchanged, when no confidence is negative. -/
theorem run (ρ : Dev nD → PrngReg)
    (h0 : ∀ (c : Dev nD) (r : Fin 4096) (cc : Fin 16), (0 : EReal) ≤ m ((c : Thread nD τ).loc main_arg0) (ix2 r (confCol cc)))
    (h1 : ∀ (c : Dev nD) (r : Fin 4096) (cc : Fin 16), (0 : EReal) ≤ m ((c : Thread nD τ).loc main_arg1) (ix2 r (confCol cc))) :
    θ_run defs (onTc (τ := τ) (main (F := Ideal))) ⟨m, fun _ => 0, ρ⟩ fun r => ∀ c : Dev nD,
      r.2.mem ((c : Thread nD τ).loc main_v2) =
        G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (h0 c) (h1 c)), (h c).2⟩)
    (Cert.KernelIdeal.Value.run_blocks m ρ)

end Cert.PairSim.Tile

end
-- ==== Proof.lean ====
/-
  The certificate of the pairwise-similarity kernel against its reference.

  Both programs compute, for every row `r` of the first array and row `s` of the second, the product of a label mask,
  the inner product of the square roots of the two rows' confidences, and the cosine of the two rows' embeddings under
  a two-layer perceptron (`Cert.PairSim.G`). The kernel clamps each confidence at zero before its square root and the
  reference does not, so the two agree exactly where no confidence is negative — which the precondition states, beside
  the finiteness of every input. The kernel's result array is `G` of the arguments (its blocks of 512 rows, each `G`'s
  block, cover the array), the reference's result is `G` of the arguments (stage by stage), and the arguments agree.
  No operation of the kernel was rewritten for its reading over the extended reals: that reading is the kernel's own
  text, so there is nothing to preserve beyond it.
-/
import proofs.«151634_j76819785056585_2_alg».proof.Defs
import proofs.«151634_j76819785056585_2_alg».proof.Proof.Gen.Kernel
import proofs.«151634_j76819785056585_2_alg».proof.Proof.Gen.Kernel.Skeleton
import proofs.«151634_j76819785056585_2_alg».proof.Proof.Gen.Kernel.Launch
import proofs.«151634_j76819785056585_2_alg».proof.Proof.Gen.Kernel.Points
import proofs.«151634_j76819785056585_2_alg».proof.Proof.Gen.Kernel.Frame
import proofs.«151634_j76819785056585_2_alg».proof.Proof.Gen.KernelIdeal
import proofs.«151634_j76819785056585_2_alg».proof.Proof.Gen.KernelIdeal.Skeleton
import proofs.«151634_j76819785056585_2_alg».proof.Proof.Gen.KernelIdeal.Launch
import proofs.«151634_j76819785056585_2_alg».proof.Proof.Gen.KernelIdeal.Points
import proofs.«151634_j76819785056585_2_alg».proof.Proof.Gen.KernelIdeal.Frame
import proofs.«151634_j76819785056585_2_alg».proof.Proof.Gen.ReferenceIdeal
import proofs.«151634_j76819785056585_2_alg».proof.Proof.Gen.Pre_finite_inputs
import proofs.«151634_j76819785056585_2_alg».proof.Proof.Gen.KernelIdeal.Value
import proofs.«151634_j76819785056585_2_alg».proof.Proof.Gen.ReferenceIdeal.Run
import proofs.«151634_j76819785056585_2_alg».proof.Proof.Gen.ReferenceIdeal.Read
import proofs.«151634_j76819785056585_2_alg».proof.Proof.Spec
import proofs.«151634_j76819785056585_2_alg».proof.Proof.ConfNonneg
import proofs.«151634_j76819785056585_2_alg».proof.Proof.RefIsG
import proofs.«151634_j76819785056585_2_alg».proof.Proof.Tiles
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From memories that agree on the arguments, the kernel and the reference both end with the result array at
    `G` of those arguments: the precondition gives the confidences' non-negativity, under which the kernel's array is
    `G`; the reference's is `G` outright. -/
theorem algebraic : Cert.algebraic_KernelIdeal_ReferenceIdeal := by
  intro m ρ m' ρ' hpre hagree
  have hn := fun c => Cert.PairSim.Pre.conf_nonneg _ _ _ _ _ _ (hpre c)
  refine ⟨_, Cert.PairSim.Tile.run m ρ (fun c => (hn c).1) (fun c => (hn c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.PairSim.Ref.ref_eq_G, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
